-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S1000x2048 : Shape := ⟨2, ![1000, 2048]⟩
abbrev S1000 : Shape := ⟨1, ![1000]⟩
abbrev S2048x1024 : Shape := ⟨2, ![2048, 1024]⟩
abbrev S2048 : Shape := ⟨1, ![2048]⟩
abbrev S1024 : Shape := ⟨1, ![1024]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048 .f32) (main_arg5 : FVec F S1024x4096 .f32) (main_arg6 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S1024x4096 .f32) (main_arg1 : FVec F S1000x2048 .f32) (main_arg2 : FVec F S1000 .f32) (main_arg3 : FVec F S2048x1024 .f32) (main_arg4 : FVec F S2048 .f32) (main_arg5 : FVec F S1024x4096 .f32) (main_arg6 : FVec F S1024 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_v13 main_v16
-- ==== Kernel.lean ====
abbrev S1024x4096 : Shape := ⟨2, ![1024, 4096]⟩
abbrev S1000x2048 : Shape := ⟨2, ![1000, 2048]⟩
abbrev S1000 : Shape := ⟨1, ![1000]⟩
abbrev S2048x1024 : Shape := ⟨2, ![2048, 1024]⟩
abbrev S2048 : Shape := ⟨1, ![2048]⟩
abbrev S1024 : Shape := ⟨1, ![1024]⟩
abbrev S_ : Shape := ⟨0, ![]⟩
abbrev S1024x2048 : Shape := ⟨2, ![1024, 2048]⟩
abbrev S1x1024 : Shape := ⟨2, ![1, 1024]⟩
abbrev S1024x1024 : Shape := ⟨2, ![1024, 1024]⟩
abbrev S256x4096 : Shape := ⟨2, ![256, 4096]⟩
abbrev S512x4096 : Shape := ⟨2, ![512, 4096]⟩
abbrev S1x512 : Shape := ⟨2, ![1, 512]⟩
abbrev S256x512 : Shape := ⟨2, ![256, 512]⟩
abbrev S1x2048 : Shape := ⟨2, ![1, 2048]⟩
abbrev S256x1024 : Shape := ⟨2, ![256, 1024]⟩
abbrev S512x1024 : Shape := ⟨2, ![512, 1024]⟩
abbrev S256x2048 : Shape := ⟨2, ![256, 2048]⟩
abbrev S512x2048 : Shape := ⟨2, ![512, 2048]⟩
abbrev S1024x1000 : Shape := ⟨2, ![1024, 1000]⟩

abbrev nBuf : Space → Nat
  | .hbm => 20
  | .vmem => 24
  | .smem => 0
  | _ => 0

abbrev bufTy : (tb : Table) → Fin (tcTables nBuf tb) → BufTy
  | .hbm, ⟨0, _⟩ => ⟨S1024x4096, .f32⟩
  | .hbm, ⟨1, _⟩ => ⟨S1000x2048, .f32⟩
  | .hbm, ⟨2, _⟩ => ⟨S1000, .f32⟩
  | .hbm, ⟨3, _⟩ => ⟨S2048x1024, .f32⟩
  | .hbm, ⟨4, _⟩ => ⟨S2048, .f32⟩
  | .hbm, ⟨5, _⟩ => ⟨S1024x4096, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S1024x2048, .f32⟩
  | .hbm, ⟨10, _⟩ => ⟨S_, .i32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x1024, .bf16⟩
  | .hbm, ⟨15, _⟩ => ⟨S1x2048, .f32⟩
  | .hbm, ⟨16, _⟩ => ⟨S1024x2048, .bf16⟩
  | .hbm, ⟨17, _⟩ => ⟨S1x1024, .f32⟩
  | .hbm, ⟨18, _⟩ => ⟨S1024x1024, .f32⟩
  | .hbm, ⟨19, _⟩ => ⟨S1024x1000, .f32⟩
  | .local _ .vmem, ⟨0, _⟩ => ⟨S256x4096, .f32⟩
  | .local _ .vmem, ⟨1, _⟩ => ⟨S256x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S1x512, .f32⟩
  | .local _ .vmem, ⟨13, _⟩ => ⟨S1x512, .f32⟩
  | .local _ .vmem, ⟨14, _⟩ => ⟨S256x512, .bf16⟩
  | .local _ .vmem, ⟨15, _⟩ => ⟨S256x512, .bf16⟩
  | .local _ .vmem, ⟨16, _⟩ => ⟨S256x2048, .bf16⟩
  | .local _ .vmem, ⟨17, _⟩ => ⟨S256x2048, .bf16⟩
  | .local _ .vmem, ⟨18, _⟩ => ⟨S512x2048, .f32⟩
  | .local _ .vmem, ⟨19, _⟩ => ⟨S512x2048, .f32⟩
  | .local _ .vmem, ⟨20, _⟩ => ⟨S1x512, .f32⟩
  | .local _ .vmem, ⟨21, _⟩ => ⟨S1x512, .f32⟩
  | .local _ .vmem, ⟨22, _⟩ => ⟨S256x512, .f32⟩
  | .local _ .vmem, ⟨23, _⟩ => ⟨S256x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  pads_S1000x2048_S1024x2048_0240_000 : S1000x2048.Pads (![0, 0] : Fin 2 → Nat) ![24, 0] ![0, 0] S1024x2048
  h_S_ : 0 < S_.numel
  pads_S1000_S1024_0240 : S1000.Pads (![0] : Fin 1 → Nat) ![24] ![0] S1024
  shapeCasts_S1024_S1x1024 : S1024.ShapeCasts S1x1024
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  shapeCasts_S2048_S1x2048 : S2048.ShapeCasts S1x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S1024x1024_S1024x1000_0_0 : S1024x1024.Slices ![0, 0] S1024x1000
  dot_S256x4096_S512x4096_S256x512_1_1_0_0_n_n_wf : DotDims.WF S256x4096 S512x4096 S256x512 [1] [1] [0] [0] [] []
  dot_S256x1024_S512x1024_S256x512_1_1_0_0_n_n_wf : DotDims.WF S256x1024 S512x1024 S256x512 [1] [1] [0] [0] [] []
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S1024x4096.size a
  hwx0_0 : ∀ i : grid0.Coords, EltTy.bits .f32 = 32 ∨ (Rect.block (s := S1024x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S1024x4096.size a
  hwx0_1 : ∀ i : grid0.Coords, EltTy.bits .f32 = 32 ∨ (Rect.block (s := S1024x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S1024x1024.size a
  hwx0_3 : ∀ i : grid0.Coords, EltTy.bits .bf16 = 32 ∨ (Rect.block (s := S1024x1024) S256x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S1024x1024.size a
  hwx1_0 : ∀ i : grid1.Coords, EltTy.bits .bf16 = 32 ∨ (Rect.block (s := S1024x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S2048x1024.size a
  hwx1_1 : ∀ i : grid1.Coords, EltTy.bits .f32 = 32 ∨ (Rect.block (s := S2048x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S1024x2048.size a
  hwx1_3 : ∀ i : grid1.Coords, EltTy.bits .bf16 = 32 ∨ (Rect.block (s := S1024x2048) S256x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S1024x2048.size a
  hwx2_0 : ∀ i : grid2.Coords, EltTy.bits .bf16 = 32 ∨ (Rect.block (s := S1024x2048) S256x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S1024x2048.size a
  hwx2_1 : ∀ i : grid2.Coords, EltTy.bits .f32 = 32 ∨ (Rect.block (s := S1024x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S1024x1024.size a
  hwx2_3 : ∀ i : grid2.Coords, EltTy.bits .f32 = 32 ∨ (Rect.block (s := S1024x1024) S256x512.size (cc2_transform_3 i) (hinb2_3 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S256x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x4096 : Shape := ⟨2, ![1024, 4096]⟩
abbrev S1000x2048 : Shape := ⟨2, ![1000, 2048]⟩
abbrev S1000 : Shape := ⟨1, ![1000]⟩
abbrev S2048x1024 : Shape := ⟨2, ![2048, 1024]⟩
abbrev S2048 : Shape := ⟨1, ![2048]⟩
abbrev S1024 : Shape := ⟨1, ![1024]⟩
abbrev S_ : Shape := ⟨0, ![]⟩
abbrev S4096x1024 : Shape := ⟨2, ![4096, 1024]⟩
abbrev S1024x1024 : Shape := ⟨2, ![1024, 1024]⟩
abbrev S1x1024 : Shape := ⟨2, ![1, 1024]⟩
abbrev S1024x2048 : Shape := ⟨2, ![1024, 2048]⟩
abbrev S1x2048 : Shape := ⟨2, ![1, 2048]⟩
abbrev S2048x1000 : Shape := ⟨2, ![2048, 1000]⟩
abbrev S1024x1000 : Shape := ⟨2, ![1024, 1000]⟩
abbrev S1x1000 : Shape := ⟨2, ![1, 1000]⟩

abbrev nBuf : Space → Nat
  | .hbm => 373
  | .vmem => 0
  | .smem => 0
  | _ => 0

abbrev hbmTy0_0 (i : Nat) : BufTy := match i % 128 with
  | 0 => ⟨S1024x4096, .f32⟩
  | 1 => ⟨S1000x2048, .f32⟩
  | 2 => ⟨S1000, .f32⟩
  | 3 => ⟨S2048x1024, .f32⟩
  | 4 => ⟨S2048, .f32⟩
  | 5 => ⟨S1024x4096, .f32⟩
  | 6 => ⟨S1024, .f32⟩
  | 7 => ⟨S_, .f32⟩
  | 8 => ⟨S1024x4096, .f32⟩
  | 9 => ⟨S1024x4096, .f32⟩
  | 10 => ⟨S4096x1024, .f32⟩
  | 11 => ⟨S1024x1024, .f32⟩
  | 12 => ⟨S1x1024, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | 18 => ⟨S1024x2048, .f32⟩
  | 19 => ⟨S1024x2048, .f32⟩
  | 20 => ⟨S1x2048, .f32⟩
  | 21 => ⟨S1024x2048, .f32⟩
  | 22 => ⟨S1024x2048, .f32⟩
  | 23 => ⟨S_, .f32⟩
  | 24 => ⟨S1024x2048, .f32⟩
  | 25 => ⟨S1024x2048, .f32⟩
  | 26 => ⟨S2048x1000, .f32⟩
  | 27 => ⟨S1024x1000, .f32⟩
  | 28 => ⟨S1x1000, .f32⟩
  | 29 => ⟨S1024x1000, .f32⟩
  | 30 => ⟨S1024x1000, .f32⟩
  | 31 => ⟨S_, .f32⟩
  | 32 => ⟨S1024x1000, .f32⟩
  | 33 => ⟨S1024x1000, .f32⟩
  | 34 => ⟨S_, .f32⟩
  | 35 => ⟨S1024x2048, .f32⟩
  | 36 => ⟨S1024x2048, .f32⟩
  | 37 => ⟨S2048x1000, .f32⟩
  | 38 => ⟨S1024x1000, .f32⟩
  | 39 => ⟨S1x1000, .f32⟩
  | 40 => ⟨S1024x1000, .f32⟩
  | 41 => ⟨S1024x1000, .f32⟩
  | 42 => ⟨S1024x1000, .f32⟩
  | 43 => ⟨S_, .f32⟩
  | 44 => ⟨S1024x1024, .f32⟩
  | 45 => ⟨S1024x1024, .f32⟩
  | 46 => ⟨S1024x2048, .f32⟩
  | 47 => ⟨S1024x2048, .f32⟩
  | 48 => ⟨S1x2048, .f32⟩
  | 49 => ⟨S1024x2048, .f32⟩
  | 50 => ⟨S1024x2048, .f32⟩
  | 51 => ⟨S1024x2048, .f32⟩
  | 52 => ⟨S_, .f32⟩
  | 53 => ⟨S1024x4096, .f32⟩
  | 54 => ⟨S1024x4096, .f32⟩
  | 55 => ⟨S4096x1024, .f32⟩
  | 56 => ⟨S1024x1024, .f32⟩
  | 57 => ⟨S1x1024, .f32⟩
  | 58 => ⟨S1024x1024, .f32⟩
  | 59 => ⟨S1024x1024, .f32⟩
  | 60 => ⟨S1024x1024, .f32⟩
  | 61 => ⟨S_, .f32⟩
  | 62 => ⟨S1024x4096, .f32⟩
  | 63 => ⟨S1024x1024, .f32⟩
  | 64 => ⟨S1024x1024, .f32⟩
  | 65 => ⟨S_, .f32⟩
  | 66 => ⟨S1024x1024, .f32⟩
  | 67 => ⟨S1024x1024, .i1⟩
  | 68 => ⟨S1024x1024, .f32⟩
  | 69 => ⟨S_, .f32⟩
  | 70 => ⟨S1024x1024, .f32⟩
  | 71 => ⟨S1024x1024, .f32⟩
  | 72 => ⟨S1024x1024, .f32⟩
  | 73 => ⟨S1024x1024, .f32⟩
  | 74 => ⟨S_, .f32⟩
  | 75 => ⟨S1024x1024, .f32⟩
  | 76 => ⟨S1024x1024, .f32⟩
  | 77 => ⟨S1024x1024, .f32⟩
  | 78 => ⟨S1024x2048, .f32⟩
  | 79 => ⟨S1024x2048, .f32⟩
  | 80 => ⟨S_, .f32⟩
  | 81 => ⟨S1024x2048, .f32⟩
  | 82 => ⟨S1024x2048, .i1⟩
  | 83 => ⟨S1024x2048, .f32⟩
  | 84 => ⟨S_, .f32⟩
  | 85 => ⟨S1024x2048, .f32⟩
  | 86 => ⟨S1024x2048, .f32⟩
  | 87 => ⟨S1024x2048, .f32⟩
  | 88 => ⟨S1024x2048, .f32⟩
  | 89 => ⟨S_, .f32⟩
  | 90 => ⟨S1024x2048, .f32⟩
  | 91 => ⟨S1024x2048, .f32⟩
  | 92 => ⟨S1024x2048, .f32⟩
  | 93 => ⟨S1024x1000, .f32⟩
  | 94 => ⟨S_, .f32⟩
  | 95 => ⟨S1024x1000, .f32⟩
  | 96 => ⟨S1024x1000, .f32⟩
  | 97 => ⟨S1024x1000, .f32⟩
  | 98 => ⟨S_, .f32⟩
  | 99 => ⟨S1024x4096, .f32⟩
  | 100 => ⟨S1024x4096, .f32⟩
  | 101 => ⟨S4096x1024, .f32⟩
  | 102 => ⟨S1024x1024, .f32⟩
  | 103 => ⟨S1x1024, .f32⟩
  | 104 => ⟨S1024x1024, .f32⟩
  | 105 => ⟨S1024x1024, .f32⟩
  | 106 => ⟨S1024x1024, .f32⟩
  | 107 => ⟨S_, .f32⟩
  | 108 => ⟨S1024x1024, .f32⟩
  | 109 => ⟨S1024x1024, .f32⟩
  | 110 => ⟨S1024x2048, .f32⟩
  | 111 => ⟨S1024x2048, .f32⟩
  | 112 => ⟨S1x2048, .f32⟩
  | 113 => ⟨S1024x2048, .f32⟩
  | 114 => ⟨S1024x2048, .f32⟩
  | 115 => ⟨S1024x2048, .f32⟩
  | 116 => ⟨S_, .f32⟩
  | 117 => ⟨S1024x2048, .f32⟩
  | 118 => ⟨S1024x2048, .f32⟩
  | 119 => ⟨S2048x1000, .f32⟩
  | 120 => ⟨S1024x1000, .f32⟩
  | 121 => ⟨S1x1000, .f32⟩
  | 122 => ⟨S1024x1000, .f32⟩
  | 123 => ⟨S1024x1000, .f32⟩
  | 124 => ⟨S1024x1000, .f32⟩
  | 125 => ⟨S1024x1024, .f32⟩
  | 126 => ⟨S1024x1024, .f32⟩
  | 127 => ⟨S_, .f32⟩
  | _ => ⟨S1024x4096, .f32⟩

abbrev hbmTy0_1 (i : Nat) : BufTy := match i % 128 with
  | 0 => ⟨S1024x1024, .f32⟩
  | 1 => ⟨S1024x1024, .i1⟩
  | 2 => ⟨S1024x1024, .f32⟩
  | 3 => ⟨S_, .f32⟩
  | 4 => ⟨S1024x1024, .f32⟩
  | 5 => ⟨S1024x1024, .f32⟩
  | 6 => ⟨S1024x1024, .f32⟩
  | 7 => ⟨S1024x1024, .f32⟩
  | 8 => ⟨S_, .f32⟩
  | 9 => ⟨S1024x1024, .f32⟩
  | 10 => ⟨S1024x1024, .f32⟩
  | 11 => ⟨S1024x1024, .f32⟩
  | 12 => ⟨S1024x2048, .f32⟩
  | 13 => ⟨S1024x2048, .f32⟩
  | 14 => ⟨S_, .f32⟩
  | 15 => ⟨S1024x2048, .f32⟩
  | 16 => ⟨S1024x2048, .i1⟩
  | 17 => ⟨S1024x2048, .f32⟩
  | 18 => ⟨S_, .f32⟩
  | 19 => ⟨S1024x2048, .f32⟩
  | 20 => ⟨S1024x2048, .f32⟩
  | 21 => ⟨S1024x2048, .f32⟩
  | 22 => ⟨S1024x2048, .f32⟩
  | 23 => ⟨S_, .f32⟩
  | 24 => ⟨S1024x2048, .f32⟩
  | 25 => ⟨S1024x2048, .f32⟩
  | 26 => ⟨S1024x2048, .f32⟩
  | 27 => ⟨S1024x1000, .f32⟩
  | 28 => ⟨S_, .f32⟩
  | 29 => ⟨S1024x1000, .f32⟩
  | 30 => ⟨S1024x1000, .f32⟩
  | 31 => ⟨S1024x1000, .f32⟩
  | 32 => ⟨S_, .f32⟩
  | 33 => ⟨S1024x4096, .f32⟩
  | 34 => ⟨S1024x4096, .f32⟩
  | 35 => ⟨S4096x1024, .f32⟩
  | 36 => ⟨S1024x1024, .f32⟩
  | 37 => ⟨S1x1024, .f32⟩
  | 38 => ⟨S1024x1024, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S1024x2048, .f32⟩
  | 45 => ⟨S1024x2048, .f32⟩
  | 46 => ⟨S1x2048, .f32⟩
  | 47 => ⟨S1024x2048, .f32⟩
  | 48 => ⟨S1024x2048, .f32⟩
  | 49 => ⟨S1024x2048, .f32⟩
  | 50 => ⟨S_, .f32⟩
  | 51 => ⟨S1024x2048, .f32⟩
  | 52 => ⟨S1024x2048, .f32⟩
  | 53 => ⟨S2048x1000, .f32⟩
  | 54 => ⟨S1024x1000, .f32⟩
  | 55 => ⟨S1x1000, .f32⟩
  | 56 => ⟨S1024x1000, .f32⟩
  | 57 => ⟨S1024x1000, .f32⟩
  | 58 => ⟨S1024x1000, .f32⟩
  | 59 => ⟨S1024x1024, .f32⟩
  | 60 => ⟨S1024x1024, .f32⟩
  | 61 => ⟨S_, .f32⟩
  | 62 => ⟨S1024x1024, .f32⟩
  | 63 => ⟨S1024x1024, .i1⟩
  | 64 => ⟨S1024x1024, .f32⟩
  | 65 => ⟨S_, .f32⟩
  | 66 => ⟨S1024x1024, .f32⟩
  | 67 => ⟨S1024x1024, .f32⟩
  | 68 => ⟨S1024x1024, .f32⟩
  | 69 => ⟨S1024x1024, .f32⟩
  | 70 => ⟨S_, .f32⟩
  | 71 => ⟨S1024x1024, .f32⟩
  | 72 => ⟨S1024x1024, .f32⟩
  | 73 => ⟨S1024x1024, .f32⟩
  | 74 => ⟨S1024x2048, .f32⟩
  | 75 => ⟨S1024x2048, .f32⟩
  | 76 => ⟨S_, .f32⟩
  | 77 => ⟨S1024x2048, .f32⟩
  | 78 => ⟨S1024x2048, .i1⟩
  | 79 => ⟨S1024x2048, .f32⟩
  | 80 => ⟨S_, .f32⟩
  | 81 => ⟨S1024x2048, .f32⟩
  | 82 => ⟨S1024x2048, .f32⟩
  | 83 => ⟨S1024x2048, .f32⟩
  | 84 => ⟨S1024x2048, .f32⟩
  | 85 => ⟨S_, .f32⟩
  | 86 => ⟨S1024x2048, .f32⟩
  | 87 => ⟨S1024x2048, .f32⟩
  | 88 => ⟨S1024x2048, .f32⟩
  | 89 => ⟨S1024x1000, .f32⟩
  | 90 => ⟨S_, .f32⟩
  | 91 => ⟨S1024x1000, .f32⟩
  | 92 => ⟨S1024x1000, .f32⟩
  | 93 => ⟨S1024x1000, .f32⟩
  | 94 => ⟨S_, .f32⟩
  | 95 => ⟨S1024x4096, .f32⟩
  | 96 => ⟨S1024x4096, .f32⟩
  | 97 => ⟨S4096x1024, .f32⟩
  | 98 => ⟨S1024x1024, .f32⟩
  | 99 => ⟨S1x1024, .f32⟩
  | 100 => ⟨S1024x1024, .f32⟩
  | 101 => ⟨S1024x1024, .f32⟩
  | 102 => ⟨S1024x1024, .f32⟩
  | 103 => ⟨S_, .f32⟩
  | 104 => ⟨S1024x1024, .f32⟩
  | 105 => ⟨S1024x1024, .f32⟩
  | 106 => ⟨S1024x2048, .f32⟩
  | 107 => ⟨S1024x2048, .f32⟩
  | 108 => ⟨S1x2048, .f32⟩
  | 109 => ⟨S1024x2048, .f32⟩
  | 110 => ⟨S1024x2048, .f32⟩
  | 111 => ⟨S1024x2048, .f32⟩
  | 112 => ⟨S_, .f32⟩
  | 113 => ⟨S1024x2048, .f32⟩
  | 114 => ⟨S1024x2048, .f32⟩
  | 115 => ⟨S2048x1000, .f32⟩
  | 116 => ⟨S1024x1000, .f32⟩
  | 117 => ⟨S1x1000, .f32⟩
  | 118 => ⟨S1024x1000, .f32⟩
  | 119 => ⟨S1024x1000, .f32⟩
  | 120 => ⟨S1024x1000, .f32⟩
  | 121 => ⟨S1024x1024, .f32⟩
  | 122 => ⟨S1024x1024, .f32⟩
  | 123 => ⟨S_, .f32⟩
  | 124 => ⟨S1024x1024, .f32⟩
  | 125 => ⟨S1024x1024, .i1⟩
  | 126 => ⟨S1024x1024, .f32⟩
  | 127 => ⟨S_, .f32⟩
  | _ => ⟨S1024x4096, .f32⟩

abbrev hbmTy0_2 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S_, .f32⟩
  | 5 => ⟨S1024x1024, .f32⟩
  | 6 => ⟨S1024x1024, .f32⟩
  | 7 => ⟨S1024x1024, .f32⟩
  | 8 => ⟨S1024x2048, .f32⟩
  | 9 => ⟨S1024x2048, .f32⟩
  | 10 => ⟨S_, .f32⟩
  | 11 => ⟨S1024x2048, .f32⟩
  | 12 => ⟨S1024x2048, .i1⟩
  | 13 => ⟨S1024x2048, .f32⟩
  | 14 => ⟨S_, .f32⟩
  | 15 => ⟨S1024x2048, .f32⟩
  | 16 => ⟨S1024x2048, .f32⟩
  | 17 => ⟨S1024x2048, .f32⟩
  | 18 => ⟨S1024x2048, .f32⟩
  | 19 => ⟨S_, .f32⟩
  | 20 => ⟨S1024x2048, .f32⟩
  | 21 => ⟨S1024x2048, .f32⟩
  | 22 => ⟨S1024x2048, .f32⟩
  | 23 => ⟨S1024x1000, .f32⟩
  | 24 => ⟨S_, .f32⟩
  | 25 => ⟨S1024x1000, .f32⟩
  | 26 => ⟨S1024x1000, .f32⟩
  | 27 => ⟨S1024x1000, .f32⟩
  | 28 => ⟨S_, .f32⟩
  | 29 => ⟨S1024x4096, .f32⟩
  | 30 => ⟨S1024x4096, .f32⟩
  | 31 => ⟨S4096x1024, .f32⟩
  | 32 => ⟨S1024x1024, .f32⟩
  | 33 => ⟨S1x1024, .f32⟩
  | 34 => ⟨S1024x1024, .f32⟩
  | 35 => ⟨S1024x1024, .f32⟩
  | 36 => ⟨S1024x1024, .f32⟩
  | 37 => ⟨S_, .f32⟩
  | 38 => ⟨S1024x1024, .f32⟩
  | 39 => ⟨S1024x1024, .f32⟩
  | 40 => ⟨S1024x2048, .f32⟩
  | 41 => ⟨S1024x2048, .f32⟩
  | 42 => ⟨S1x2048, .f32⟩
  | 43 => ⟨S1024x2048, .f32⟩
  | 44 => ⟨S1024x2048, .f32⟩
  | 45 => ⟨S1024x2048, .f32⟩
  | 46 => ⟨S_, .f32⟩
  | 47 => ⟨S1024x2048, .f32⟩
  | 48 => ⟨S1024x2048, .f32⟩
  | 49 => ⟨S2048x1000, .f32⟩
  | 50 => ⟨S1024x1000, .f32⟩
  | 51 => ⟨S1x1000, .f32⟩
  | 52 => ⟨S1024x1000, .f32⟩
  | 53 => ⟨S1024x1000, .f32⟩
  | 54 => ⟨S1024x1000, .f32⟩
  | 55 => ⟨S1024x1024, .f32⟩
  | 56 => ⟨S1024x1024, .f32⟩
  | 57 => ⟨S_, .f32⟩
  | 58 => ⟨S1024x1024, .f32⟩
  | 59 => ⟨S1024x1024, .i1⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S1024x1024, .f32⟩
  | 70 => ⟨S1024x2048, .f32⟩
  | 71 => ⟨S1024x2048, .f32⟩
  | 72 => ⟨S_, .f32⟩
  | 73 => ⟨S1024x2048, .f32⟩
  | 74 => ⟨S1024x2048, .i1⟩
  | 75 => ⟨S1024x2048, .f32⟩
  | 76 => ⟨S_, .f32⟩
  | 77 => ⟨S1024x2048, .f32⟩
  | 78 => ⟨S1024x2048, .f32⟩
  | 79 => ⟨S1024x2048, .f32⟩
  | 80 => ⟨S1024x2048, .f32⟩
  | 81 => ⟨S_, .f32⟩
  | 82 => ⟨S1024x2048, .f32⟩
  | 83 => ⟨S1024x2048, .f32⟩
  | 84 => ⟨S1024x2048, .f32⟩
  | 85 => ⟨S1024x1000, .f32⟩
  | 86 => ⟨S_, .f32⟩
  | 87 => ⟨S1024x1000, .f32⟩
  | 88 => ⟨S1024x1000, .f32⟩
  | 89 => ⟨S1024x1000, .f32⟩
  | 90 => ⟨S_, .f32⟩
  | 91 => ⟨S1024x4096, .f32⟩
  | 92 => ⟨S1024x4096, .f32⟩
  | 93 => ⟨S4096x1024, .f32⟩
  | 94 => ⟨S1024x1024, .f32⟩
  | 95 => ⟨S1x1024, .f32⟩
  | 96 => ⟨S1024x1024, .f32⟩
  | 97 => ⟨S1024x1024, .f32⟩
  | 98 => ⟨S1024x1024, .f32⟩
  | 99 => ⟨S_, .f32⟩
  | 100 => ⟨S1024x1024, .f32⟩
  | 101 => ⟨S1024x1024, .f32⟩
  | 102 => ⟨S1024x2048, .f32⟩
  | 103 => ⟨S1024x2048, .f32⟩
  | 104 => ⟨S1x2048, .f32⟩
  | 105 => ⟨S1024x2048, .f32⟩
  | 106 => ⟨S1024x2048, .f32⟩
  | 107 => ⟨S1024x2048, .f32⟩
  | 108 => ⟨S_, .f32⟩
  | 109 => ⟨S1024x2048, .f32⟩
  | 110 => ⟨S1024x2048, .f32⟩
  | 111 => ⟨S2048x1000, .f32⟩
  | 112 => ⟨S1024x1000, .f32⟩
  | 113 => ⟨S1x1000, .f32⟩
  | 114 => ⟨S1024x1000, .f32⟩
  | 115 => ⟨S1024x1000, .f32⟩
  | 116 => ⟨S1024x1000, .f32⟩
  | _ => ⟨S1024x4096, .f32⟩

abbrev hbmTy (i : Nat) : BufTy := match i / 128 with
  | 0 => hbmTy0_0 i
  | 1 => hbmTy0_1 i
  | 2 => hbmTy0_2 i
  | _ => ⟨S1024x4096, .f32⟩

abbrev bufTy : (tb : Table) → Fin (tcTables nBuf tb) → BufTy
  | .hbm, ⟨i, _⟩ => hbmTy i
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_cst : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call2_cst : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call3_cst : Ref sig .tc := ⟨.hbm, 31, rfl⟩
abbrev main_call3_v0 : Ref sig .tc := ⟨.hbm, 32, rfl⟩
abbrev main_v18 : Ref sig .tc := ⟨.hbm, 33, rfl⟩
abbrev main_call4_cst : Ref sig .tc := ⟨.hbm, 34, rfl⟩
abbrev main_call4_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call5_cst : Ref sig .tc := ⟨.hbm, 43, rfl⟩
abbrev main_call5_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call6_cst : Ref sig .tc := ⟨.hbm, 52, rfl⟩
abbrev main_call6_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_1 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_2 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_3 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_4 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call7_cst : Ref sig .tc := ⟨.hbm, 98, rfl⟩
abbrev main_call7_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call8_cst : Ref sig .tc := ⟨.hbm, 107, rfl⟩
abbrev main_call8_v0 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call9_cst : Ref sig .tc := ⟨.hbm, 116, rfl⟩
abbrev main_call9_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_7 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_8 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_9 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_10 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_11 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_12 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_13 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_call10_cst : Ref sig .tc := ⟨.hbm, 160, rfl⟩
abbrev main_call10_v0 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_call11_cst : Ref sig .tc := ⟨.hbm, 169, rfl⟩
abbrev main_call11_v0 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_call12_cst : Ref sig .tc := ⟨.hbm, 178, rfl⟩
abbrev main_call12_v0 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_14 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_15 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_16 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_17 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_18 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_19 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_cst_20 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_call13_cst : Ref sig .tc := ⟨.hbm, 222, rfl⟩
abbrev main_call13_v0 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_call14_cst : Ref sig .tc := ⟨.hbm, 231, rfl⟩
abbrev main_call14_v0 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_call15_cst : Ref sig .tc := ⟨.hbm, 240, rfl⟩
abbrev main_call15_v0 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_21 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_cst_22 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_23 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_cst_24 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_cst_25 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_cst_26 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_cst_27 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_call16_cst : Ref sig .tc := ⟨.hbm, 284, rfl⟩
abbrev main_call16_v0 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_call17_cst : Ref sig .tc := ⟨.hbm, 293, rfl⟩
abbrev main_call17_v0 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_call18_cst : Ref sig .tc := ⟨.hbm, 302, rfl⟩
abbrev main_call18_v0 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_cst_28 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_cst_29 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_cst_30 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_cst_31 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_cst_32 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_cst_33 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_cst_34 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_call19_cst : Ref sig .tc := ⟨.hbm, 346, rfl⟩
abbrev main_call19_v0 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_call20_cst : Ref sig .tc := ⟨.hbm, 355, rfl⟩
abbrev main_call20_v0 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_call21_cst : Ref sig .tc := ⟨.hbm, 364, rfl⟩
abbrev main_call21_v0 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩

abbrev nD : Nat := 1
abbrev τ : Topo := Topo.v7x

variable {F : FTy → Type} [FloatOps F]

class Facts₀ : Prop where
  bcast_S_S1024x4096 : S_.BroadcastsInDim S1024x4096 (![] : Fin 0 → Fin S1024x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  transposes_S1000x2048_S2048x1000_1_0 : S1000x2048.Transposes [1, 0] S2048x1000
  bcast_S1000_S1x1000_1 : S1000.BroadcastsInDim S1x1000 (![1] : Fin 1 → Fin S1x1000.rank)
  bcast_S1x1000_S1024x1000_0_1 : S1x1000.BroadcastsInDim S1024x1000 (![0, 1] : Fin 2 → Fin S1024x1000.rank)
  bcast_S_S1024x1000 : S_.BroadcastsInDim S1024x1000 (![] : Fin 0 → Fin S1024x1000.rank)
  dot_S1024x4096_S4096x1024_S1024x1024_1_0_0_1_n_n_wf : DotDims.WF S1024x4096 S4096x1024 S1024x1024 [1] [0] [0] [1] [] []
  dot_S1024x1024_S1024x2048_S1024x2048_1_0_0_1_n_n_wf : DotDims.WF S1024x1024 S1024x2048 S1024x2048 [1] [0] [0] [1] [] []
  dot_S1024x2048_S2048x1000_S1024x1000_1_0_0_1_n_n_wf : DotDims.WF S1024x2048 S2048x1000 S1024x1000 [1] [0] [0] [1] [] []
  dot_S1024x2048_S2048x1024_S1024x1024_1_0_0_1_n_n_wf : DotDims.WF S1024x2048 S2048x1024 S1024x1024 [1] [0] [0] [1] [] []
  dot_S1024x1000_S1000x2048_S1024x2048_1_0_0_1_n_n_wf : DotDims.WF S1024x1000 S1000x2048 S1024x2048 [1] [0] [0] [1] [] []

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x1000_S1024x1000_1_0_0_1_n_n : DotDims S1024x2048 S2048x1000 S1024x1000 where
  lhsContracting := [1]
  rhsContracting := [0]
  lhsNonContracting := [0]
  rhsNonContracting := [1]
  lhsBatch := []
  rhsBatch := []
  wf := dot_S1024x2048_S2048x1000_S1024x1000_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1000_S1000x2048_S1024x2048_1_0_0_1_n_n : DotDims S1024x1000 S1000x2048 S1024x2048 where
  lhsContracting := [1]
  rhsContracting := [0]
  lhsNonContracting := [0]
  rhsNonContracting := [1]
  lhsBatch := []
  rhsBatch := []
  wf := dot_S1024x1000_S1000x2048_S1024x2048_1_0_0_1_n_n_wf

class Facts : Prop extends Facts₀ where

variable [Facts]
-- ==== Proof.KRun.lean ====
/-
  The idealized kernel's run with its final buffer contents kept.

  @main is eleven segments: stretches of host operations (the padding of the class layer's weights and bias, the three
  bias vectors laid out as rows, the final cut of the 1000 true class columns) around three launches of the linear-layer
  body. Every weakly fair execution runs them in order; at the end every buffer that outlives the launches holds the
  contents obtained by folding the segments over the launch memory: a host stretch applies its operations, a launch
  replaces each of its arrays by what its write-backs leave. This module states that, and reads off the result buffer and
  the seven arguments.
-/
import proofs.«181184_j32744830665380_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives the launches at the
    last boundary's contents (the fold of the eleven segments over the launch memory). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The result buffer ends at the last boundary's contents, and the seven arguments as launched. -/
theorem run_value : θ_run defs (onTc (τ := τ) (main (F := F))) ⟨m, fun _ => 0, ρ⟩ (fun r => ∀ c : Dev nD,
      r.2.mem ((c.tc : Thread nD τ).loc main_v8) = W11 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨h c _ (mem_uc main_v8 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)
    (run_all m ρ)

end Cert.KernelIdeal.RunV

end
-- ==== Proof.KHost.lean ====
/-
  The host operations around the three launches, read at the buffers the launches use.

  Before the first launch the host pads the class layer's weights and bias with the integer zero converted to a float
  (24 rows below the 1000 rows; 24 entries after the 1000 entries) and lays the 1024-unit layer's bias out as a row; between
  the launches it lays the other two biases out as rows; after the last launch it keeps the first 1000 columns. No host
  operation writes an argument, and a launch writes only its own output array, so every other buffer is read back through
  the boundaries to the last operation that wrote it.
-/
import proofs.«181184_j32744830665380_2_alg».proof.Proof.Gen.KernelIdeal.Frame
import Idealize.ShloMosaic.Lib.StableHlo.Run
import Idealize.ShloMosaic.PureOps.Ideal

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The padding value: the integer zero converted to a float. -/
abbrev padv : FVec Ideal S_ .f32 := sitofp (F := Ideal) .f32 (constantI S_ 32 0#32)

/-! ## At the first launch -/

theorem W5_arg0 : W5 m ρ c (Proc.devRef .tc main_arg0) = m ((c : Thread nD τ).loc main_arg0) := by
  dsimp only [W5, W4, W3, W2, W1, W0, hostOps0_4, hostOps0_3, hostOps0_2, hostOps0_1, hostOps0]
  after_results

theorem W5_arg3 : W5 m ρ c (Proc.devRef .tc main_arg3) = m ((c : Thread nD τ).loc main_arg3) := by
  dsimp only [W5, W4, W3, W2, W1, W0, hostOps0_4, hostOps0_3, hostOps0_2, hostOps0_1, hostOps0]
  after_results

theorem W5_arg4 : W5 m ρ c (Proc.devRef .tc main_arg4) = m ((c : Thread nD τ).loc main_arg4) := by
  dsimp only [W5, W4, W3, W2, W1, W0, hostOps0_4, hostOps0_3, hostOps0_2, hostOps0_1, hostOps0]
  after_results

theorem W5_arg5 : W5 m ρ c (Proc.devRef .tc main_arg5) = m ((c : Thread nD τ).loc main_arg5) := by
  dsimp only [W5, W4, W3, W2, W1, W0, hostOps0_4, hostOps0_3, hostOps0_2, hostOps0_1, hostOps0]
  after_results

/-- The 1024-unit layer's bias as a row. -/
theorem W5_v2 : W5 m ρ c (Proc.devRef .tc main_v2)
    = shapeCast S1x1024 (m ((c : Thread nD τ).loc main_arg6) : FVec Ideal S1024 .f32) shapeCasts_S1024_S1x1024 := by
  dsimp only [W5, W4, W3, W2, W1, W0, hostOps0_4, hostOps0_3, hostOps0_2, hostOps0_1, hostOps0]
  after_results
  rfl

/-- The class layer's weights, padded to 1024 rows. -/
theorem W5_v0 : W5 m ρ c (Proc.devRef .tc main_v0)
    = pad S1024x2048 ![0, 0] ![24, 0] ![0, 0] (m ((c : Thread nD τ).loc main_arg1) : FVec Ideal S1000x2048 .f32) padv
        pads_S1000x2048_S1024x2048_0240_000 h_S_ := by
  dsimp only [W5, W4, W3, W2, W1, W0, hostOps0_4, hostOps0_3, hostOps0_2, hostOps0_1, hostOps0]
  after_results
  rfl

/-- The class layer's bias, padded to 1024 entries. -/
theorem W5_v1 : W5 m ρ c (Proc.devRef .tc main_v1)
    = pad S1024 ![0] ![24] ![0] (m ((c : Thread nD τ).loc main_arg2) : FVec Ideal S1000 .f32) padv pads_S1000_S1024_0240 h_S_ := by
  dsimp only [W5, W4, W3, W2, W1, W0, hostOps0_4, hostOps0_3, hostOps0_2, hostOps0_1, hostOps0]
  after_results
  rfl

/-! ## At the second launch -/

theorem W7_v3 : W7 m ρ c (Proc.devRef .tc main_v3) = W6 m ρ c (Proc.devRef .tc main_v3) := by
  dsimp only [W7, hostOps1]
  after_results

theorem W7_arg3 : W7 m ρ c (Proc.devRef .tc main_arg3) = m ((c : Thread nD τ).loc main_arg3) := by
  have h1 : W7 m ρ c (Proc.devRef .tc main_arg3) = W6 m ρ c (Proc.devRef .tc main_arg3) := by
    dsimp only [W7, hostOps1]
    after_results
  exact h1.trans ((W6_of_ne m ρ c main_arg3 (by decide)).trans (W5_arg3 m ρ c))

/-- The 2048-unit layer's bias as a row. -/
theorem W7_v4 : W7 m ρ c (Proc.devRef .tc main_v4)
    = shapeCast S1x2048 (m ((c : Thread nD τ).loc main_arg4) : FVec Ideal S2048 .f32) shapeCasts_S2048_S1x2048 := by
  have h1 : W7 m ρ c (Proc.devRef .tc main_v4)
      = shapeCast S1x2048 (W6 m ρ c (Proc.devRef .tc main_arg4) : FVec Ideal S2048 .f32) shapeCasts_S2048_S1x2048 := by
    dsimp only [W7, hostOps1]
    after_results
    rfl
  rw [h1, W6_of_ne m ρ c main_arg4 (by decide), W5_arg4]

/-! ## At the third launch -/

theorem W9_v5 : W9 m ρ c (Proc.devRef .tc main_v5) = W8 m ρ c (Proc.devRef .tc main_v5) := by
  dsimp only [W9, hostOps2]
  after_results

theorem W8_v0 : W8 m ρ c (Proc.devRef .tc main_v0) = W5 m ρ c (Proc.devRef .tc main_v0) := by
  have h2 : W7 m ρ c (Proc.devRef .tc main_v0) = W6 m ρ c (Proc.devRef .tc main_v0) := by
    dsimp only [W7, hostOps1]
    after_results
  exact (W8_of_ne m ρ c main_v0 (by decide)).trans (h2.trans (W6_of_ne m ρ c main_v0 (by decide)))

theorem W8_v1 : W8 m ρ c (Proc.devRef .tc main_v1) = W5 m ρ c (Proc.devRef .tc main_v1) := by
  have h2 : W7 m ρ c (Proc.devRef .tc main_v1) = W6 m ρ c (Proc.devRef .tc main_v1) := by
    dsimp only [W7, hostOps1]
    after_results
  exact (W8_of_ne m ρ c main_v1 (by decide)).trans (h2.trans (W6_of_ne m ρ c main_v1 (by decide)))

theorem W9_v0 : W9 m ρ c (Proc.devRef .tc main_v0)
    = pad S1024x2048 ![0, 0] ![24, 0] ![0, 0] (m ((c : Thread nD τ).loc main_arg1) : FVec Ideal S1000x2048 .f32) padv
        pads_S1000x2048_S1024x2048_0240_000 h_S_ := by
  have h0 : W9 m ρ c (Proc.devRef .tc main_v0) = W8 m ρ c (Proc.devRef .tc main_v0) := by
    dsimp only [W9, hostOps2]
    after_results
  exact h0.trans ((W8_v0 m ρ c).trans (W5_v0 m ρ c))

/-- The padded class bias as a row. -/
theorem W9_v6 : W9 m ρ c (Proc.devRef .tc main_v6)
    = shapeCast S1x1024 (pad S1024 ![0] ![24] ![0] (m ((c : Thread nD τ).loc main_arg2) : FVec Ideal S1000 .f32) padv
        pads_S1000_S1024_0240 h_S_) shapeCasts_S1024_S1x1024 := by
  have h1 : W9 m ρ c (Proc.devRef .tc main_v6)
      = shapeCast S1x1024 (W8 m ρ c (Proc.devRef .tc main_v1) : FVec Ideal S1024 .f32) shapeCasts_S1024_S1x1024 := by
    dsimp only [W9, hostOps2]
    after_results
    rfl
  rw [h1, W8_v1, W5_v1]

/-! ## After the third launch -/

/-- The result: the first 1000 columns of the third launch's output. -/
theorem W11_v8 : W11 m ρ c (Proc.devRef .tc main_v8)
    = extractStridedSlice S1024x1000 ![0, 0] (W10 m ρ c (Proc.devRef .tc main_v7) : FVec Ideal S1024x1024 .f32)
        slices_S1024x1024_S1024x1000_0_0 := by
  dsimp only [W11, hostOps3]
  after_results

end Cert.KernelIdeal.HostV

end
-- ==== Proof.Net.lean ====
/-
  The network that both programs compute, as functions on arrays of extended reals.

  A fully connected layer whose weight matrix stores one row per output unit sends an [M, K] array l, an [N, K]
  matrix W and a length-N bias b to the [M, N] array with entry (p, q) = Σ_k l(p, k) · W(q, k) + b(q). The rectifier
  takes the maximum of every entry with the number that the f32 zero word denotes (it is zero; both programs spell it
  with that word, so it never has to be evaluated). The network is three such layers from the observation up to the
  classes, rectified on the way in and between the layers, and not rectified at the top.
-/
import Idealize.ShloMosaic.PureOps.Ideal
import Idealize.ShloMosaic.PureOps.Ideal.Laws
import Idealize.ShloMosaic.Lib.ValueIdx

noncomputable section

open scoped BigOperators

namespace Cert.Net

open Idealize.ShloMosaic Idealize.ShloMosaic.ValueIdx

/-- The rectifier's threshold: the f32 zero word read as an extended real. -/
abbrev z0 : EReal := Ideal.ofBits .f32 0x00000000#32

/-- The rectifier, entry by entry. -/
def relu {S : Shape} (x : S.Idx → EReal) : S.Idx → EReal := fun i => max (x i) z0

theorem relu_apply {S : Shape} (x : S.Idx → EReal) (i : S.Idx) : relu x i = max (x i) z0 := rfl

/-- A fully connected layer, the weight matrix stored one row per output unit. -/
def dense {M K N : ℕ} (l : (⟨2, ![M, K]⟩ : Shape).Idx → EReal) (W : (⟨2, ![N, K]⟩ : Shape).Idx → EReal)
    (b : (⟨1, ![N]⟩ : Shape).Idx → EReal) : (⟨2, ![M, N]⟩ : Shape).Idx → EReal :=
  fun i => (∑ k : Fin K, l (ix2 (i 0) k) * W (ix2 (i 1) k)) + b (ix1 (i 1))

theorem dense_apply {M K N : ℕ} (l : (⟨2, ![M, K]⟩ : Shape).Idx → EReal) (W : (⟨2, ![N, K]⟩ : Shape).Idx → EReal)
    (b : (⟨1, ![N]⟩ : Shape).Idx → EReal) (p : Fin M) (q : Fin N) :
    dense l W b (ix2 p q) = (∑ k : Fin K, l (ix2 p k) * W (ix2 q k)) + b (ix1 q) := rfl

/-- The three layers: observation [1024, 4096] → 1024 units → 2048 units → 1000 classes. -/
def net (obs : (⟨2, ![1024, 4096]⟩ : Shape).Idx → EReal)
    (W0 : (⟨2, ![1000, 2048]⟩ : Shape).Idx → EReal) (b0 : (⟨1, ![1000]⟩ : Shape).Idx → EReal)
    (W1 : (⟨2, ![2048, 1024]⟩ : Shape).Idx → EReal) (b1 : (⟨1, ![2048]⟩ : Shape).Idx → EReal)
    (W2 : (⟨2, ![1024, 4096]⟩ : Shape).Idx → EReal) (b2 : (⟨1, ![1024]⟩ : Shape).Idx → EReal) :
    (⟨2, ![1024, 1000]⟩ : Shape).Idx → EReal :=
  dense (relu (dense (relu (dense (relu obs) W2 b2)) W1 b1)) W0 b0

/-- A [1, N] row read as a length-N vector. -/
def rowVec {N : ℕ} (B : (⟨2, ![1, N]⟩ : Shape).Idx → EReal) : (⟨1, ![N]⟩ : Shape).Idx → EReal := fun j => B (ix2 (0 : Fin 1) (j 0))

theorem rowVec_apply {N : ℕ} (B : (⟨2, ![1, N]⟩ : Shape).Idx → EReal) (q : Fin N) : rowVec B (ix1 q) = B (ix2 (0 : Fin 1) q) := rfl

/-- An array all of whose entries are real numbers. -/
def IsReal {S : Shape} (x : S.Idx → EReal) : Prop := ∀ i, ∃ r : ℝ, x i = (r : EReal)

theorem isReal_relu {S : Shape} {x : S.Idx → EReal} (h : IsReal x) : IsReal (relu x) := fun i => by
  obtain ⟨r, hr⟩ := h i
  refine ⟨max r 0, ?_⟩
  rw [relu_apply, hr, show z0 = ((0 : ℝ) : EReal) from Ideal.ofBits_zero_f32]
  exact (EReal.coe_strictMono.monotone.map_max).symm

/-- A finite sum of real numbers, each included in the extended reals, is a real number. -/
theorem exists_real_sum {ι : Type*} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := ih fun k hk => h k (Finset.mem_insert_of_mem hk)
    obtain ⟨ra, hra⟩ := h a (Finset.mem_insert_self a s)
    exact ⟨ra + r, by rw [Finset.sum_insert ha, hr, hra, EReal.coe_add]⟩

theorem isReal_dense {M K N : ℕ} {l : (⟨2, ![M, K]⟩ : Shape).Idx → EReal} {W : (⟨2, ![N, K]⟩ : Shape).Idx → EReal}
    {b : (⟨1, ![N]⟩ : Shape).Idx → EReal} (hl : IsReal l) (hW : IsReal W) (hb : IsReal b) : IsReal (dense l W b) := fun i => by
  obtain ⟨s, hs⟩ := exists_real_sum Finset.univ (fun k : Fin K => l (ix2 (i 0) k) * W (ix2 (i 1) k)) fun k _ => by
    obtain ⟨a, ha⟩ := hl (ix2 (i 0) k)
    obtain ⟨c, hc⟩ := hW (ix2 (i 1) k)
    exact ⟨a * c, by rw [ha, hc, EReal.coe_mul]⟩
  obtain ⟨rb, hrb⟩ := hb (ix1 (i 1))
  exact ⟨s + rb, by show (∑ k : Fin K, l (ix2 (i 0) k) * W (ix2 (i 1) k)) + b (ix1 (i 1)) = _; rw [hs, hrb, EReal.coe_add]⟩

end Cert.Net

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.KTail.lean ====
/-
  Padding the class layer and cutting the padding off again changes nothing.

  The kernel pads the class layer's weight matrix from 1000 to 1024 rows and its bias from 1000 to 1024 entries (so that
  the output tiles are whole), applies the layer, and keeps the first 1000 columns of the result. Column q < 1000 of the
  padded layer reads row q of the padded matrix and entry q of the padded bias, which are row q and entry q of the
  originals: so the kept columns are the unpadded layer's, whatever the padding value. A bias laid out as a [1, N] row and
  read back as a vector is the bias.
-/
import proofs.«181184_j32744830665380_2_alg».proof.Proof.Net
import proofs.«181184_j32744830665380_2_alg».proof.Proof.LibColsCut
import proofs.«181184_j32744830665380_2_alg».proof.Proof.LibRow
import Idealize.ShloMosaic.Lib.KernelVsHost
import Idealize.ShloMosaic.Lib.Pipeline.Value

noncomputable section

open scoped BigOperators

namespace Cert.Net

open Idealize.ShloMosaic Idealize.ShloMosaic.ValueIdx

/-- A vector laid out as a one-row matrix and read back as a vector is the vector. -/
theorem rowVec_shapeCast {N : ℕ} (b : (⟨1, ![N]⟩ : Shape).Idx → EReal) (h : (⟨1, ![N]⟩ : Shape).ShapeCasts ⟨2, ![1, N]⟩) :
    rowVec (shapeCast (⟨2, ![1, N]⟩ : Shape) b h) = b := by
  funext j
  obtain ⟨q, rfl⟩ : ∃ q : Fin N, j = ix1 q := ⟨j 0, eq_ix1 j⟩
  rw [rowVec_apply, Cert.LibRow.row_apply]

/-- The padded class layer cut back to its 1000 true columns is the unpadded layer. -/
theorem dense_pad_cut {M K : ℕ} (l : (⟨2, ![M, K]⟩ : Shape).Idx → EReal)
    (W : (⟨2, ![1000, K]⟩ : Shape).Idx → EReal) (b : (⟨1, ![1000]⟩ : Shape).Idx → EReal)
    {u : Shape} (v : u.Idx → EReal) (hu : 0 < u.numel)
    (hW : (⟨2, ![1000, K]⟩ : Shape).Pads ![0, 0] ![24, 0] ![0, 0] ⟨2, ![1024, K]⟩)
    (hb : (⟨1, ![1000]⟩ : Shape).Pads ![0] ![24] ![0] ⟨1, ![1024]⟩)
    (hc : (⟨1, ![1024]⟩ : Shape).ShapeCasts ⟨2, ![1, 1024]⟩)
    (hs : (⟨2, ![M, 1024]⟩ : Shape).Slices ![0, 0] ⟨2, ![M, 1000]⟩) :
    extractStridedSlice (⟨2, ![M, 1000]⟩ : Shape) ![0, 0]
        (dense l (pad (⟨2, ![1024, K]⟩ : Shape) ![0, 0] ![24, 0] ![0, 0] W v hW hu)
          (rowVec (shapeCast (⟨2, ![1, 1024]⟩ : Shape) (pad (⟨1, ![1024]⟩ : Shape) ![0] ![24] ![0] b v hb hu) hc))) hs
      = dense l W b := by
  funext i
  obtain ⟨p, q, rfl⟩ : ∃ (p : Fin M) (q : Fin 1000), i = ix2 p q := ⟨i 0, i 1, eq_ix2 i⟩
  have hq : q.val < 1024 := by have := q.isLt; omega
  rw [Cert.LibColsCut.slice_cols 0 _ hs p q ⟨q.val, hq⟩ (by simp), dense_apply, dense_apply, rowVec_shapeCast]
  congr 1
  · refine Finset.sum_congr rfl fun k _ => ?_
    congr 1
    refine pad_apply_of_inside ![0, 0] ![24, 0] ![0, 0] W v hW hu (ix2 (⟨q.val, hq⟩ : Fin 1024) k) (ix2 q k) fun a => ?_
    match a with
    | ⟨0, _⟩ => show q.val = 0 + q.val * (0 + 1); omega
    | ⟨1, _⟩ => show k.val = 0 + k.val * (0 + 1); omega
  · refine pad_apply_of_inside ![0] ![24] ![0] b v hb hu (ix1 (⟨q.val, hq⟩ : Fin 1024)) (ix1 q) fun a => ?_
    match a with
    | ⟨0, _⟩ => show q.val = 0 + q.val * (0 + 1); omega

end Cert.Net

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.KPay0.lean ====
/-
  The body of the first launch, read at an entry of its output block.

  The body loads an [256, 4096] block x0, a [512, 4096] block x1 and a [1, 512] row x2 and stores
  max(max(x0, 0) · x1ᵀ + x2, 0); over the extended reals the format changes are the identity, so entry (p, q) is
  the rectified sum over the shared axis of the rectified left block's row p against the right block's row q, plus the bias row's entry q.
-/
import proofs.«181184_j32744830665380_2_alg».proof.Proof.Gen.KernelIdeal.Skeleton
import proofs.«181184_j32744830665380_2_alg».proof.Proof.Net
import proofs.«181184_j32744830665380_2_alg».proof.Proof.LibDotT
import proofs.«181184_j32744830665380_2_alg».proof.Proof.LibColsJoin
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.ValueIdx

/-- The body as a term of whole-block operations: the casts to the same shape and the format changes dropped. -/
theorem pay0_vec (x0 : FVec Ideal S256x4096 .f32) (x1 : FVec Ideal S512x4096 .f32) (x2 : FVec Ideal S1x512 .f32) :
    k0_pay1 (F := Ideal) x0 x1 x2
      = maximumf (addf (matmul dot_S256x4096_S512x4096_S256x512_1_1_0_0_n_n none (maximumf x0 (broadcast S256x4096 (Scalar.ofBits (F := Ideal) .f32 0x00000000#32))) x1 (constant (F := Ideal) S256x512 .f32 0x00000000#32))
          (broadcastTo S256x512 x2 broadcasts_S1x512_S256x512)) (broadcast S256x512 (Scalar.ofBits (F := Ideal) .f32 0x00000000#32)) := by
  unfold k0_pay1
  simp only [shapeCast_self]
  rfl

/-- Entry (p, q) of the body's result: the rectified sum over the shared axis of the rectified left block's row p against the right block's row q, plus the bias row's entry q. -/
theorem pay0_apply (x0 : FVec Ideal S256x4096 .f32) (x1 : FVec Ideal S512x4096 .f32) (x2 : FVec Ideal S1x512 .f32)
    (p : Fin 256) (q : Fin 512) :
    k0_pay1 (F := Ideal) x0 x1 x2 (ix2 p q)
      = max ((∑ k : Fin 4096, max (x0 (ix2 p k)) Cert.Net.z0 * x1 (ix2 q k)) + x2 (ix2 (0 : Fin 1) q)) Cert.Net.z0 := by
  rw [pay0_vec, maximumf_apply, addf_apply]
  refine congrArg₂ max (congrArg₂ (· + ·) ?_ ?_) rfl
  · exact Cert.LibDotT.matmulT_zero_apply dot_S256x4096_S512x4096_S256x512_1_1_0_0_n_n rfl rfl rfl rfl (fun _ _ => rfl) (fun _ _ => rfl) none _ x1 p q
  · exact Cert.LibColsJoin.bcast_row (by decide) x2 broadcasts_S1x512_S256x512 p q

end Cert.KernelIdeal.Blocks

end
-- ==== Proof.KBlocks0.lean ====
/-
  The first launch, from its blocks to its whole output array.

  Grid point (j, i) reads rows 256·i … 256·i + 255 of the [1024, 4096] input, rows 512·j … 512·j + 511 of the
  [1024, 4096] weight matrix and columns 512·j … 512·j + 511 of the [1, 1024] bias row, and writes back rows 256·i …,
  columns 512·j … of the [1024, 1024] output. Entry (p, q) of what it writes is the layer's entry
  (256·i + p, 512·j + q): the sum runs over the whole shared axis, which no block cuts. The 8 output blocks
  tile the array, so after the launch the array is the layer of the arrays the launch found.
-/
import proofs.«181184_j32744830665380_2_alg».proof.Proof.Gen.KernelIdeal.Frame
import proofs.«181184_j32744830665380_2_alg».proof.Proof.KPay0
import proofs.«181184_j32744830665380_2_alg».proof.Proof.Net
import Idealize.ShloMosaic.Lib.Pipeline.Value
import Idealize.ShloMosaic.Lib.ValueIdx

noncomputable section

open scoped BigOperators

namespace Cert.KernelIdeal.Blocks0

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds. -/
abbrev layer (c : Dev nD) : S1024x1024.Idx → EReal :=
  Cert.Net.relu (Cert.Net.dense (Cert.Net.relu (V c main_arg0)) (V c main_arg5) (Cert.Net.rowVec (V c main_v2)))

/-- The printed index maps, decided over the grid: the input's row block is the output's, the weight's row block
    and the bias's column block are the output's column block, the other block indices are zero, and the output's
    block indices stay in their ranges. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3 ∧ win0_3.index t (1 : Fin 2) ≤ 1 :=
  (by decide +kernel : ∀ t : Fin grid0.N, _)

/-- Every output block is some point's. -/
theorem idx_onto : ∀ (q0 : Fin 4) (q1 : Fin 2), ∃ t : Fin cfg0.N, win0_3.index t = ![q0.val, q1.val] :=
  (by decide +kernel : ∀ (q0 : Fin 4) (q1 : Fin 2), ∃ t : Fin grid0.N, win0_3.index t = ![q0.val, q1.val])

/-- An entry of the input's block at a point is the array's entry at block index × block size + the coordinate. -/
theorem iblk_x_apply (c : Dev nD) (t : Fin cfg0.N) (x : S256x4096.Idx) (k : S1024x4096.Idx)
    (h0 : (k 0).val = win0_0.index t (0 : Fin 2) * 256 + (x 0).val)
    (h1 : (k 1).val = win0_0.index t (1 : Fin 2) * 4096 + (x 1).val) :
    (iblk0 V c 0 t : S256x4096.Idx → EReal) x = (V c main_arg0 : S1024x4096.Idx → EReal) k := by
  unfold iblk0
  rw [View.read_apply]
  show V c main_arg0 _ = V c main_arg0 _
  congr 1
  funext a
  apply Fin.ext
  match a with
  | ⟨0, _⟩ => show win0_0.index t (0 : Fin 2) * 256 + 1 * (x 0).val = (k 0).val; omega
  | ⟨1, _⟩ => show win0_0.index t (1 : Fin 2) * 4096 + 1 * (x 1).val = (k 1).val; omega

/-- The same for the weight matrix's block. -/
theorem iblk_w_apply (c : Dev nD) (t : Fin cfg0.N) (x : S512x4096.Idx) (k : S1024x4096.Idx)
    (h0 : (k 0).val = win0_1.index t (0 : Fin 2) * 512 + (x 0).val)
    (h1 : (k 1).val = win0_1.index t (1 : Fin 2) * 4096 + (x 1).val) :
    (iblk0 V c 1 t : S512x4096.Idx → EReal) x = (V c main_arg5 : S1024x4096.Idx → EReal) k := by
  unfold iblk0
  rw [View.read_apply]
  show V c main_arg5 _ = V c main_arg5 _
  congr 1
  funext a
  apply Fin.ext
  match a with
  | ⟨0, _⟩ => show win0_1.index t (0 : Fin 2) * 512 + 1 * (x 0).val = (k 0).val; omega
  | ⟨1, _⟩ => show win0_1.index t (1 : Fin 2) * 4096 + 1 * (x 1).val = (k 1).val; omega

/-- The same for the bias row's block. -/
theorem iblk_b_apply (c : Dev nD) (t : Fin cfg0.N) (x : S1x512.Idx) (k : S1x1024.Idx)
    (h0 : (k 0).val = win0_2.index t (0 : Fin 2) * 1 + (x 0).val)
    (h1 : (k 1).val = win0_2.index t (1 : Fin 2) * 512 + (x 1).val) :
    (iblk0 V c 2 t : S1x512.Idx → EReal) x = (V c main_v2 : S1x1024.Idx → EReal) k := by
  unfold iblk0
  rw [View.read_apply]
  show V c main_v2 _ = V c main_v2 _
  congr 1
  funext a
  apply Fin.ext
  match a with
  | ⟨0, _⟩ => show win0_2.index t (0 : Fin 2) * 1 + 1 * (x 0).val = (k 0).val; omega
  | ⟨1, _⟩ => show win0_2.index t (1 : Fin 2) * 512 + 1 * (x 1).val = (k 1).val; omega

/-- What a point writes back is its block of the layer. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero hz]
  simp only [View.ld_unit_zero (S := S256x4096) hz, View.ld_unit_zero (S := S512x4096) hz, View.ld_unit_zero (S := S1x512) hz]
  obtain ⟨e0, e1, e2, e3, e4, e5, e6, e7⟩ := idx_facts t
  funext j
  obtain ⟨p, q, rfl⟩ : ∃ (p : Fin 256) (q : Fin 512), j = ix2 p q := ⟨j 0, j 1, eq_ix2 j⟩
  have hP : win0_3.index t (0 : Fin 2) * 256 + p.val < 1024 := by have := p.isLt; omega
  have hQ : win0_3.index t (1 : Fin 2) * 512 + q.val < 1024 := by have := q.isLt; omega
  have hemb : ((cfg0.win 3).blk t).view.emb (ix2 p q) = (ix2 (⟨_, hP⟩ : Fin 1024) (⟨_, hQ⟩ : Fin 1024) : S1024x1024.Idx) := by
    funext a
    apply Fin.ext
    match a with
    | ⟨0, _⟩ => show win0_3.index t (0 : Fin 2) * 256 + 1 * p.val = win0_3.index t (0 : Fin 2) * 256 + p.val; omega
    | ⟨1, _⟩ => show win0_3.index t (1 : Fin 2) * 512 + 1 * q.val = win0_3.index t (1 : Fin 2) * 512 + q.val; omega
  show k0_pay1 (F := Ideal) (iblk0 V c 0 t) (iblk0 V c 1 t) (iblk0 V c 2 t) (ix2 p q)
    = layer V c (((cfg0.win 3).blk t).view.emb (ix2 p q))
  rw [hemb]
  refine (pay0_apply (iblk0 V c 0 t) (iblk0 V c 1 t) (iblk0 V c 2 t) p q).trans ?_
  refine Eq.trans ?_ (Cert.Net.relu_apply _ _).symm
  refine congrArg (max · Cert.Net.z0) ?_
  refine Eq.trans ?_ (Cert.Net.dense_apply (Cert.Net.relu (V c main_arg0)) (V c main_arg5) (Cert.Net.rowVec (V c main_v2)) (⟨_, hP⟩ : Fin 1024) (⟨_, hQ⟩ : Fin 1024)).symm
  refine congrArg₂ (· + ·) (Finset.sum_congr rfl fun k _ => congrArg₂ (· * ·) ?_ ?_) ?_
  · refine Eq.trans (congrArg (max · Cert.Net.z0) ?_) (Cert.Net.relu_apply (V c main_arg0) (ix2 (⟨_, hP⟩ : Fin 1024) k)).symm
    exact iblk_x_apply V c t (ix2 p k) (ix2 (⟨_, hP⟩ : Fin 1024) k)
        (by show win0_3.index t (0 : Fin 2) * 256 + p.val = win0_0.index t (0 : Fin 2) * 256 + p.val; omega)
        (by show k.val = win0_0.index t (1 : Fin 2) * 4096 + k.val; omega)
  · exact iblk_w_apply V c t (ix2 q k) (ix2 (⟨_, hQ⟩ : Fin 1024) k)
      (by show win0_3.index t (1 : Fin 2) * 512 + q.val = win0_1.index t (0 : Fin 2) * 512 + q.val; omega)
      (by show k.val = win0_1.index t (1 : Fin 2) * 4096 + k.val; omega)
  · refine Eq.trans ?_ (Cert.Net.rowVec_apply (V c main_v2) (⟨_, hQ⟩ : Fin 1024)).symm
    exact iblk_b_apply V c t (ix2 (0 : Fin 1) q) (ix2 (0 : Fin 1) (⟨_, hQ⟩ : Fin 1024))
        (by show 0 = win0_2.index t (0 : Fin 2) * 1 + 0; omega)
        (by show win0_3.index t (1 : Fin 2) * 512 + q.val = win0_2.index t (1 : Fin 2) * 512 + q.val; omega)

/-- An index of the array is in a point's block iff each coordinate is in the block's range on its axis. -/
theorem mem_blk (t : Fin cfg0.N) (i : S1024x1024.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v3).slice (win0_3.rect t)).set ↔ _
  rw [View.set_slice_whole, Rect.mem_set_unit]
  exact Iff.rfl

/-- Every index of the output array is in some point's block: row r is in row block r / 256, column s in column block s / 512. -/
theorem cover (i : S1024x1024.Idx) : ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := idx_onto ⟨(i 0).val / 256, by omega⟩ ⟨(i 1).val / 512, by omega⟩
  have q0 : win0_3.index t (0 : Fin 2) = (i 0).val / 256 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

end Cert.KernelIdeal.Blocks0

namespace Cert.KernelIdeal.Blocks

open Cert.KernelIdeal Cert.KernelIdeal.Gen
open Idealize.ShloMosaic Idealize.ShloMosaic.TcCoe Idealize.SL.Sem
open Idealize.ShloMosaic.Pipeline (Dat)

/-- After the first launch its output array is the layer of the arrays the launch found. -/
theorem final0 (V : (c : Dev nD) → (b : Ref sig .tc) → Buf (Elt Ideal) ((c : Thread nD τ).loc b)) (c : Dev nD) :
    (Cert.KernelIdeal.Gen.dat0 (F := Ideal) V c).arrAt 3 cfg0.N
      = Cert.Net.relu (Cert.Net.dense (Cert.Net.relu (V c main_arg0)) (V c main_arg5) (Cert.Net.rowVec (V c main_v2))) :=
  (dat0 V c).arrAt_eq_of_cover 3 (Blocks0.layer V c) (fun t _ => Blocks0.flushed_eq V c t) Blocks0.cover

end Cert.KernelIdeal.Blocks

end
-- ==== Proof.KPay1.lean ====
/-
  The body of the second launch, read at an entry of its output block.

  The body loads an [256, 1024] block x0, a [512, 1024] block x1 and a [1, 512] row x2 and stores
  max(x0 · x1ᵀ + x2, 0); over the extended reals the format changes are the identity, so entry (p, q) is
  the rectified sum over the shared axis of the left block's row p against the right block's row q, plus the bias row's entry q.
-/
import proofs.«181184_j32744830665380_2_alg».proof.Proof.Gen.KernelIdeal.Skeleton
import proofs.«181184_j32744830665380_2_alg».proof.Proof.Net
import proofs.«181184_j32744830665380_2_alg».proof.Proof.LibDotT
import proofs.«181184_j32744830665380_2_alg».proof.Proof.LibColsJoin
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.ValueIdx

/-- The body as a term of whole-block operations: the casts to the same shape and the format changes dropped. -/
theorem pay1_vec (x0 : FVec Ideal S256x1024 .bf16) (x1 : FVec Ideal S512x1024 .f32) (x2 : FVec Ideal S1x512 .f32) :
    k1_pay1 (F := Ideal) x0 x1 x2
      = maximumf (addf (matmul dot_S256x1024_S512x1024_S256x512_1_1_0_0_n_n none x0 x1 (constant (F := Ideal) S256x512 .f32 0x00000000#32))
          (broadcastTo S256x512 x2 broadcasts_S1x512_S256x512)) (broadcast S256x512 (Scalar.ofBits (F := Ideal) .f32 0x00000000#32)) := by
  unfold k1_pay1
  simp only [shapeCast_self]
  rfl

/-- Entry (p, q) of the body's result: the rectified sum over the shared axis of the left block's row p against the right block's row q, plus the bias row's entry q. -/
theorem pay1_apply (x0 : FVec Ideal S256x1024 .bf16) (x1 : FVec Ideal S512x1024 .f32) (x2 : FVec Ideal S1x512 .f32)
    (p : Fin 256) (q : Fin 512) :
    k1_pay1 (F := Ideal) x0 x1 x2 (ix2 p q)
      = max ((∑ k : Fin 1024, x0 (ix2 p k) * x1 (ix2 q k)) + x2 (ix2 (0 : Fin 1) q)) Cert.Net.z0 := by
  rw [pay1_vec, maximumf_apply, addf_apply]
  refine congrArg₂ max (congrArg₂ (· + ·) ?_ ?_) rfl
  · exact Cert.LibDotT.matmulT_zero_apply dot_S256x1024_S512x1024_S256x512_1_1_0_0_n_n rfl rfl rfl rfl (fun _ _ => rfl) (fun _ _ => rfl) none _ x1 p q
  · exact Cert.LibColsJoin.bcast_row (by decide) x2 broadcasts_S1x512_S256x512 p q

end Cert.KernelIdeal.Blocks

end
-- ==== Proof.KBlocks1.lean ====
/-
  The second launch, from its blocks to its whole output array.

  Grid point (j, i) reads rows 256·i … 256·i + 255 of the [1024, 1024] input, rows 512·j … 512·j + 511 of the
  [2048, 1024] weight matrix and columns 512·j … 512·j + 511 of the [1, 2048] bias row, and writes back rows 256·i …,
  columns 512·j … of the [1024, 2048] output. Entry (p, q) of what it writes is the layer's entry
  (256·i + p, 512·j + q): the sum runs over the whole shared axis, which no block cuts. The 16 output blocks
  tile the array, so after the launch the array is the layer of the arrays the launch found.
-/
import proofs.«181184_j32744830665380_2_alg».proof.Proof.Gen.KernelIdeal.Frame
import proofs.«181184_j32744830665380_2_alg».proof.Proof.KPay1
import proofs.«181184_j32744830665380_2_alg».proof.Proof.Net
import Idealize.ShloMosaic.Lib.Pipeline.Value
import Idealize.ShloMosaic.Lib.ValueIdx

noncomputable section

open scoped BigOperators

namespace Cert.KernelIdeal.Blocks1

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds. -/
abbrev layer (c : Dev nD) : S1024x2048.Idx → EReal :=
  Cert.Net.relu (Cert.Net.dense (V c main_v3) (V c main_arg3) (Cert.Net.rowVec (V c main_v4)))

/-- The printed index maps, decided over the grid: the input's row block is the output's, the weight's row block
    and the bias's column block are the output's column block, the other block indices are zero, and the output's
    block indices stay in their ranges. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 3 ∧ win1_3.index t (1 : Fin 2) ≤ 3 :=
  (by decide +kernel : ∀ t : Fin grid1.N, _)

/-- Every output block is some point's. -/
theorem idx_onto : ∀ (q0 : Fin 4) (q1 : Fin 4), ∃ t : Fin cfg1.N, win1_3.index t = ![q0.val, q1.val] :=
  (by decide +kernel : ∀ (q0 : Fin 4) (q1 : Fin 4), ∃ t : Fin grid1.N, win1_3.index t = ![q0.val, q1.val])

/-- An entry of the input's block at a point is the array's entry at block index × block size + the coordinate. -/
theorem iblk_x_apply (c : Dev nD) (t : Fin cfg1.N) (x : S256x1024.Idx) (k : S1024x1024.Idx)
    (h0 : (k 0).val = win1_0.index t (0 : Fin 2) * 256 + (x 0).val)
    (h1 : (k 1).val = win1_0.index t (1 : Fin 2) * 1024 + (x 1).val) :
    (iblk1 V c 0 t : S256x1024.Idx → EReal) x = (V c main_v3 : S1024x1024.Idx → EReal) k := by
  unfold iblk1
  rw [View.read_apply]
  show V c main_v3 _ = V c main_v3 _
  congr 1
  funext a
  apply Fin.ext
  match a with
  | ⟨0, _⟩ => show win1_0.index t (0 : Fin 2) * 256 + 1 * (x 0).val = (k 0).val; omega
  | ⟨1, _⟩ => show win1_0.index t (1 : Fin 2) * 1024 + 1 * (x 1).val = (k 1).val; omega

/-- The same for the weight matrix's block. -/
theorem iblk_w_apply (c : Dev nD) (t : Fin cfg1.N) (x : S512x1024.Idx) (k : S2048x1024.Idx)
    (h0 : (k 0).val = win1_1.index t (0 : Fin 2) * 512 + (x 0).val)
    (h1 : (k 1).val = win1_1.index t (1 : Fin 2) * 1024 + (x 1).val) :
    (iblk1 V c 1 t : S512x1024.Idx → EReal) x = (V c main_arg3 : S2048x1024.Idx → EReal) k := by
  unfold iblk1
  rw [View.read_apply]
  show V c main_arg3 _ = V c main_arg3 _
  congr 1
  funext a
  apply Fin.ext
  match a with
  | ⟨0, _⟩ => show win1_1.index t (0 : Fin 2) * 512 + 1 * (x 0).val = (k 0).val; omega
  | ⟨1, _⟩ => show win1_1.index t (1 : Fin 2) * 1024 + 1 * (x 1).val = (k 1).val; omega

/-- The same for the bias row's block. -/
theorem iblk_b_apply (c : Dev nD) (t : Fin cfg1.N) (x : S1x512.Idx) (k : S1x2048.Idx)
    (h0 : (k 0).val = win1_2.index t (0 : Fin 2) * 1 + (x 0).val)
    (h1 : (k 1).val = win1_2.index t (1 : Fin 2) * 512 + (x 1).val) :
    (iblk1 V c 2 t : S1x512.Idx → EReal) x = (V c main_v4 : S1x2048.Idx → EReal) k := by
  unfold iblk1
  rw [View.read_apply]
  show V c main_v4 _ = V c main_v4 _
  congr 1
  funext a
  apply Fin.ext
  match a with
  | ⟨0, _⟩ => show win1_2.index t (0 : Fin 2) * 1 + 1 * (x 0).val = (k 0).val; omega
  | ⟨1, _⟩ => show win1_2.index t (1 : Fin 2) * 512 + 1 * (x 1).val = (k 1).val; omega

/-- What a point writes back is its block of the layer. -/
theorem flushed_eq (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero hz]
  simp only [View.ld_unit_zero (S := S256x1024) hz, View.ld_unit_zero (S := S512x1024) hz, View.ld_unit_zero (S := S1x512) hz]
  obtain ⟨e0, e1, e2, e3, e4, e5, e6, e7⟩ := idx_facts t
  funext j
  obtain ⟨p, q, rfl⟩ : ∃ (p : Fin 256) (q : Fin 512), j = ix2 p q := ⟨j 0, j 1, eq_ix2 j⟩
  have hP : win1_3.index t (0 : Fin 2) * 256 + p.val < 1024 := by have := p.isLt; omega
  have hQ : win1_3.index t (1 : Fin 2) * 512 + q.val < 2048 := by have := q.isLt; omega
  have hemb : ((cfg1.win 3).blk t).view.emb (ix2 p q) = (ix2 (⟨_, hP⟩ : Fin 1024) (⟨_, hQ⟩ : Fin 2048) : S1024x2048.Idx) := by
    funext a
    apply Fin.ext
    match a with
    | ⟨0, _⟩ => show win1_3.index t (0 : Fin 2) * 256 + 1 * p.val = win1_3.index t (0 : Fin 2) * 256 + p.val; omega
    | ⟨1, _⟩ => show win1_3.index t (1 : Fin 2) * 512 + 1 * q.val = win1_3.index t (1 : Fin 2) * 512 + q.val; omega
  show k1_pay1 (F := Ideal) (iblk1 V c 0 t) (iblk1 V c 1 t) (iblk1 V c 2 t) (ix2 p q)
    = layer V c (((cfg1.win 3).blk t).view.emb (ix2 p q))
  rw [hemb]
  refine (pay1_apply (iblk1 V c 0 t) (iblk1 V c 1 t) (iblk1 V c 2 t) p q).trans ?_
  refine Eq.trans ?_ (Cert.Net.relu_apply _ _).symm
  refine congrArg (max · Cert.Net.z0) ?_
  refine Eq.trans ?_ (Cert.Net.dense_apply (V c main_v3) (V c main_arg3) (Cert.Net.rowVec (V c main_v4)) (⟨_, hP⟩ : Fin 1024) (⟨_, hQ⟩ : Fin 2048)).symm
  refine congrArg₂ (· + ·) (Finset.sum_congr rfl fun k _ => congrArg₂ (· * ·) ?_ ?_) ?_
  · exact iblk_x_apply V c t (ix2 p k) (ix2 (⟨_, hP⟩ : Fin 1024) k)
      (by show win1_3.index t (0 : Fin 2) * 256 + p.val = win1_0.index t (0 : Fin 2) * 256 + p.val; omega)
      (by show k.val = win1_0.index t (1 : Fin 2) * 1024 + k.val; omega)
  · exact iblk_w_apply V c t (ix2 q k) (ix2 (⟨_, hQ⟩ : Fin 2048) k)
      (by show win1_3.index t (1 : Fin 2) * 512 + q.val = win1_1.index t (0 : Fin 2) * 512 + q.val; omega)
      (by show k.val = win1_1.index t (1 : Fin 2) * 1024 + k.val; omega)
  · refine Eq.trans ?_ (Cert.Net.rowVec_apply (V c main_v4) (⟨_, hQ⟩ : Fin 2048)).symm
    exact iblk_b_apply V c t (ix2 (0 : Fin 1) q) (ix2 (0 : Fin 1) (⟨_, hQ⟩ : Fin 2048))
        (by show 0 = win1_2.index t (0 : Fin 2) * 1 + 0; omega)
        (by show win1_3.index t (1 : Fin 2) * 512 + q.val = win1_2.index t (1 : Fin 2) * 512 + q.val; omega)

/-- An index of the array is in a point's block iff each coordinate is in the block's range on its axis. -/
theorem mem_blk (t : Fin cfg1.N) (i : S1024x2048.Idx) :
    i ∈ ((cfg1.win 3).blk t).view.set ↔ ∀ a : Fin 2, win1_3.index t a * S256x512.size a ≤ (i a).val ∧ (i a).val < win1_3.index t a * S256x512.size a + S256x512.size a := by
  show i ∈ ((View.whole main_v5).slice (win1_3.rect t)).set ↔ _
  rw [View.set_slice_whole, Rect.mem_set_unit]
  exact Iff.rfl

/-- Every index of the output array is in some point's block: row r is in row block r / 256, column s in column block s / 512. -/
theorem cover (i : S1024x2048.Idx) : ∃ t : Fin cfg1.N, (cfg1.win 3).flush t = true ∧ i ∈ ((cfg1.win 3).blk t).view.set := by
  have hi0 : (i 0).val < 1024 := (i 0).isLt
  have hi1 : (i 1).val < 2048 := (i 1).isLt
  obtain ⟨t, ht⟩ := idx_onto ⟨(i 0).val / 256, by omega⟩ ⟨(i 1).val / 512, by omega⟩
  have q0 : win1_3.index t (0 : Fin 2) = (i 0).val / 256 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 512 ≤ (i 1).val ∧ (i 1).val < win1_3.index t (1 : Fin 2) * 512 + 512; omega

end Cert.KernelIdeal.Blocks1

namespace Cert.KernelIdeal.Blocks

open Cert.KernelIdeal Cert.KernelIdeal.Gen
open Idealize.ShloMosaic Idealize.ShloMosaic.TcCoe Idealize.SL.Sem
open Idealize.ShloMosaic.Pipeline (Dat)

/-- After the second launch its output array is the layer of the arrays the launch found. -/
theorem final1 (V : (c : Dev nD) → (b : Ref sig .tc) → Buf (Elt Ideal) ((c : Thread nD τ).loc b)) (c : Dev nD) :
    (Cert.KernelIdeal.Gen.dat1 (F := Ideal) V c).arrAt 3 cfg1.N
      = Cert.Net.relu (Cert.Net.dense (V c main_v3) (V c main_arg3) (Cert.Net.rowVec (V c main_v4))) :=
  (dat1 V c).arrAt_eq_of_cover 3 (Blocks1.layer V c) (fun t _ => Blocks1.flushed_eq V c t) Blocks1.cover

end Cert.KernelIdeal.Blocks

end
-- ==== Proof.KPay2.lean ====
/-
  The body of the third launch, read at an entry of its output block.

  The body loads an [256, 2048] block x0, a [512, 2048] block x1 and a [1, 512] row x2 and stores
  x0 · x1ᵀ + x2; over the extended reals the format changes are the identity, so entry (p, q) is
  sum over the shared axis of the left block's row p against the right block's row q, plus the bias row's entry q.
-/
import proofs.«181184_j32744830665380_2_alg».proof.Proof.Gen.KernelIdeal.Skeleton
import proofs.«181184_j32744830665380_2_alg».proof.Proof.Net
import proofs.«181184_j32744830665380_2_alg».proof.Proof.LibDotT
import proofs.«181184_j32744830665380_2_alg».proof.Proof.LibColsJoin
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.ValueIdx

/-- The body as a term of whole-block operations: the casts to the same shape and the format changes dropped. -/
theorem pay2_vec (x0 : FVec Ideal S256x2048 .bf16) (x1 : FVec Ideal S512x2048 .f32) (x2 : FVec Ideal S1x512 .f32) :
    k2_pay1 (F := Ideal) x0 x1 x2
      = addf (matmul dot_S256x2048_S512x2048_S256x512_1_1_0_0_n_n none x0 x1 (constant (F := Ideal) S256x512 .f32 0x00000000#32))
          (broadcastTo S256x512 x2 broadcasts_S1x512_S256x512) := by
  unfold k2_pay1
  simp only [shapeCast_self]
  rfl

/-- Entry (p, q) of the body's result: sum over the shared axis of the left block's row p against the right block's row q, plus the bias row's entry q. -/
theorem pay2_apply (x0 : FVec Ideal S256x2048 .bf16) (x1 : FVec Ideal S512x2048 .f32) (x2 : FVec Ideal S1x512 .f32)
    (p : Fin 256) (q : Fin 512) :
    k2_pay1 (F := Ideal) x0 x1 x2 (ix2 p q)
      = (∑ k : Fin 2048, x0 (ix2 p k) * x1 (ix2 q k)) + x2 (ix2 (0 : Fin 1) q) := by
  rw [pay2_vec, addf_apply]
  refine congrArg₂ (· + ·) ?_ ?_
  · exact Cert.LibDotT.matmulT_zero_apply dot_S256x2048_S512x2048_S256x512_1_1_0_0_n_n rfl rfl rfl rfl (fun _ _ => rfl) (fun _ _ => rfl) none _ x1 p q
  · exact Cert.LibColsJoin.bcast_row (by decide) x2 broadcasts_S1x512_S256x512 p q

end Cert.KernelIdeal.Blocks

end
-- ==== Proof.KBlocks2.lean ====
/-
  The third launch, from its blocks to its whole output array.

  Grid point (j, i) reads rows 256·i … 256·i + 255 of the [1024, 2048] input, rows 512·j … 512·j + 511 of the
  [1024, 2048] weight matrix and columns 512·j … 512·j + 511 of the [1, 1024] bias row, and writes back rows 256·i …,
  columns 512·j … of the [1024, 1024] output. Entry (p, q) of what it writes is the layer's entry
  (256·i + p, 512·j + q): the sum runs over the whole shared axis, which no block cuts. The 8 output blocks
  tile the array, so after the launch the array is the layer of the arrays the launch found.
-/
import proofs.«181184_j32744830665380_2_alg».proof.Proof.Gen.KernelIdeal.Frame
import proofs.«181184_j32744830665380_2_alg».proof.Proof.KPay2
import proofs.«181184_j32744830665380_2_alg».proof.Proof.Net
import Idealize.ShloMosaic.Lib.Pipeline.Value
import Idealize.ShloMosaic.Lib.ValueIdx

noncomputable section

open scoped BigOperators

namespace Cert.KernelIdeal.Blocks2

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds. -/
abbrev layer (c : Dev nD) : S1024x1024.Idx → EReal :=
  Cert.Net.dense (V c main_v5) (V c main_v0) (Cert.Net.rowVec (V c main_v6))

/-- The printed index maps, decided over the grid: the input's row block is the output's, the weight's row block
    and the bias's column block are the output's column block, the other block indices are zero, and the output's
    block indices stay in their ranges. -/
theorem idx_facts : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 3 ∧ win2_3.index t (1 : Fin 2) ≤ 1 :=
  (by decide +kernel : ∀ t : Fin grid2.N, _)

/-- Every output block is some point's. -/
theorem idx_onto : ∀ (q0 : Fin 4) (q1 : Fin 2), ∃ t : Fin cfg2.N, win2_3.index t = ![q0.val, q1.val] :=
  (by decide +kernel : ∀ (q0 : Fin 4) (q1 : Fin 2), ∃ t : Fin grid2.N, win2_3.index t = ![q0.val, q1.val])

/-- An entry of the input's block at a point is the array's entry at block index × block size + the coordinate. -/
theorem iblk_x_apply (c : Dev nD) (t : Fin cfg2.N) (x : S256x2048.Idx) (k : S1024x2048.Idx)
    (h0 : (k 0).val = win2_0.index t (0 : Fin 2) * 256 + (x 0).val)
    (h1 : (k 1).val = win2_0.index t (1 : Fin 2) * 2048 + (x 1).val) :
    (iblk2 V c 0 t : S256x2048.Idx → EReal) x = (V c main_v5 : S1024x2048.Idx → EReal) k := by
  unfold iblk2
  rw [View.read_apply]
  show V c main_v5 _ = V c main_v5 _
  congr 1
  funext a
  apply Fin.ext
  match a with
  | ⟨0, _⟩ => show win2_0.index t (0 : Fin 2) * 256 + 1 * (x 0).val = (k 0).val; omega
  | ⟨1, _⟩ => show win2_0.index t (1 : Fin 2) * 2048 + 1 * (x 1).val = (k 1).val; omega

/-- The same for the weight matrix's block. -/
theorem iblk_w_apply (c : Dev nD) (t : Fin cfg2.N) (x : S512x2048.Idx) (k : S1024x2048.Idx)
    (h0 : (k 0).val = win2_1.index t (0 : Fin 2) * 512 + (x 0).val)
    (h1 : (k 1).val = win2_1.index t (1 : Fin 2) * 2048 + (x 1).val) :
    (iblk2 V c 1 t : S512x2048.Idx → EReal) x = (V c main_v0 : S1024x2048.Idx → EReal) k := by
  unfold iblk2
  rw [View.read_apply]
  show V c main_v0 _ = V c main_v0 _
  congr 1
  funext a
  apply Fin.ext
  match a with
  | ⟨0, _⟩ => show win2_1.index t (0 : Fin 2) * 512 + 1 * (x 0).val = (k 0).val; omega
  | ⟨1, _⟩ => show win2_1.index t (1 : Fin 2) * 2048 + 1 * (x 1).val = (k 1).val; omega

/-- The same for the bias row's block. -/
theorem iblk_b_apply (c : Dev nD) (t : Fin cfg2.N) (x : S1x512.Idx) (k : S1x1024.Idx)
    (h0 : (k 0).val = win2_2.index t (0 : Fin 2) * 1 + (x 0).val)
    (h1 : (k 1).val = win2_2.index t (1 : Fin 2) * 512 + (x 1).val) :
    (iblk2 V c 2 t : S1x512.Idx → EReal) x = (V c main_v6 : S1x1024.Idx → EReal) k := by
  unfold iblk2
  rw [View.read_apply]
  show V c main_v6 _ = V c main_v6 _
  congr 1
  funext a
  apply Fin.ext
  match a with
  | ⟨0, _⟩ => show win2_2.index t (0 : Fin 2) * 1 + 1 * (x 0).val = (k 0).val; omega
  | ⟨1, _⟩ => show win2_2.index t (1 : Fin 2) * 512 + 1 * (x 1).val = (k 1).val; omega

/-- What a point writes back is its block of the layer. -/
theorem flushed_eq (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3]
  unfold out2_3
  rw [View.canon_unit_zero hz]
  simp only [View.ld_unit_zero (S := S256x2048) hz, View.ld_unit_zero (S := S512x2048) hz, View.ld_unit_zero (S := S1x512) hz]
  obtain ⟨e0, e1, e2, e3, e4, e5, e6, e7⟩ := idx_facts t
  funext j
  obtain ⟨p, q, rfl⟩ : ∃ (p : Fin 256) (q : Fin 512), j = ix2 p q := ⟨j 0, j 1, eq_ix2 j⟩
  have hP : win2_3.index t (0 : Fin 2) * 256 + p.val < 1024 := by have := p.isLt; omega
  have hQ : win2_3.index t (1 : Fin 2) * 512 + q.val < 1024 := by have := q.isLt; omega
  have hemb : ((cfg2.win 3).blk t).view.emb (ix2 p q) = (ix2 (⟨_, hP⟩ : Fin 1024) (⟨_, hQ⟩ : Fin 1024) : S1024x1024.Idx) := by
    funext a
    apply Fin.ext
    match a with
    | ⟨0, _⟩ => show win2_3.index t (0 : Fin 2) * 256 + 1 * p.val = win2_3.index t (0 : Fin 2) * 256 + p.val; omega
    | ⟨1, _⟩ => show win2_3.index t (1 : Fin 2) * 512 + 1 * q.val = win2_3.index t (1 : Fin 2) * 512 + q.val; omega
  show k2_pay1 (F := Ideal) (iblk2 V c 0 t) (iblk2 V c 1 t) (iblk2 V c 2 t) (ix2 p q)
    = layer V c (((cfg2.win 3).blk t).view.emb (ix2 p q))
  rw [hemb]
  refine (pay2_apply (iblk2 V c 0 t) (iblk2 V c 1 t) (iblk2 V c 2 t) p q).trans ?_
  refine Eq.trans ?_ (Cert.Net.dense_apply (V c main_v5) (V c main_v0) (Cert.Net.rowVec (V c main_v6)) (⟨_, hP⟩ : Fin 1024) (⟨_, hQ⟩ : Fin 1024)).symm
  refine congrArg₂ (· + ·) (Finset.sum_congr rfl fun k _ => congrArg₂ (· * ·) ?_ ?_) ?_
  · exact iblk_x_apply V c t (ix2 p k) (ix2 (⟨_, hP⟩ : Fin 1024) k)
      (by show win2_3.index t (0 : Fin 2) * 256 + p.val = win2_0.index t (0 : Fin 2) * 256 + p.val; omega)
      (by show k.val = win2_0.index t (1 : Fin 2) * 2048 + k.val; omega)
  · exact iblk_w_apply V c t (ix2 q k) (ix2 (⟨_, hQ⟩ : Fin 1024) k)
      (by show win2_3.index t (1 : Fin 2) * 512 + q.val = win2_1.index t (0 : Fin 2) * 512 + q.val; omega)
      (by show k.val = win2_1.index t (1 : Fin 2) * 2048 + k.val; omega)
  · refine Eq.trans ?_ (Cert.Net.rowVec_apply (V c main_v6) (⟨_, hQ⟩ : Fin 1024)).symm
    exact iblk_b_apply V c t (ix2 (0 : Fin 1) q) (ix2 (0 : Fin 1) (⟨_, hQ⟩ : Fin 1024))
        (by show 0 = win2_2.index t (0 : Fin 2) * 1 + 0; omega)
        (by show win2_3.index t (1 : Fin 2) * 512 + q.val = win2_2.index t (1 : Fin 2) * 512 + q.val; omega)

/-- An index of the array is in a point's block iff each coordinate is in the block's range on its axis. -/
theorem mem_blk (t : Fin cfg2.N) (i : S1024x1024.Idx) :
    i ∈ ((cfg2.win 3).blk t).view.set ↔ ∀ a : Fin 2, win2_3.index t a * S256x512.size a ≤ (i a).val ∧ (i a).val < win2_3.index t a * S256x512.size a + S256x512.size a := by
  show i ∈ ((View.whole main_v7).slice (win2_3.rect t)).set ↔ _
  rw [View.set_slice_whole, Rect.mem_set_unit]
  exact Iff.rfl

/-- Every index of the output array is in some point's block: row r is in row block r / 256, column s in column block s / 512. -/
theorem cover (i : S1024x1024.Idx) : ∃ t : Fin cfg2.N, (cfg2.win 3).flush t = true ∧ i ∈ ((cfg2.win 3).blk t).view.set := by
  have hi0 : (i 0).val < 1024 := (i 0).isLt
  have hi1 : (i 1).val < 1024 := (i 1).isLt
  obtain ⟨t, ht⟩ := idx_onto ⟨(i 0).val / 256, by omega⟩ ⟨(i 1).val / 512, by omega⟩
  have q0 : win2_3.index t (0 : Fin 2) = (i 0).val / 256 := congrFun ht 0
  have q1 : win2_3.index t (1 : Fin 2) = (i 1).val / 512 := congrFun ht 1
  refine ⟨t, flush2_3 t, ?_⟩
  rw [mem_blk]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 512 ≤ (i 1).val ∧ (i 1).val < win2_3.index t (1 : Fin 2) * 512 + 512; omega

end Cert.KernelIdeal.Blocks2

namespace Cert.KernelIdeal.Blocks

open Cert.KernelIdeal Cert.KernelIdeal.Gen
open Idealize.ShloMosaic Idealize.ShloMosaic.TcCoe Idealize.SL.Sem
open Idealize.ShloMosaic.Pipeline (Dat)

/-- After the third launch its output array is the layer of the arrays the launch found. -/
theorem final2 (V : (c : Dev nD) → (b : Ref sig .tc) → Buf (Elt Ideal) ((c : Thread nD τ).loc b)) (c : Dev nD) :
    (Cert.KernelIdeal.Gen.dat2 (F := Ideal) V c).arrAt 3 cfg2.N
      = Cert.Net.dense (V c main_v5) (V c main_v0) (Cert.Net.rowVec (V c main_v6)) :=
  (dat2 V c).arrAt_eq_of_cover 3 (Blocks2.layer V c) (fun t _ => Blocks2.flushed_eq V c t) Blocks2.cover

end Cert.KernelIdeal.Blocks

end
-- ==== Proof.KChain.lean ====
/-
  The idealized kernel's result is the network of its arguments.

  Reading the last boundary's contents backwards: the result is the first 1000 columns of the third launch's output; that
  output is the class layer (its weights and bias zero-padded to 1024) of the second launch's output; that is the rectified
  2048-unit layer of the first launch's output; that is the rectified 1024-unit layer of the rectified observation. The
  three biases enter as rows that are the bias vectors laid out, and padding the class layer and cutting the padding off
  again changes nothing; no finiteness is needed on this side.
-/
import proofs.«181184_j32744830665380_2_alg».proof.Proof.KHost
import proofs.«181184_j32744830665380_2_alg».proof.Proof.KTail
import proofs.«181184_j32744830665380_2_alg».proof.Proof.Net
import proofs.«181184_j32744830665380_2_alg».proof.Proof.KBlocks0
import proofs.«181184_j32744830665380_2_alg».proof.Proof.KBlocks1
import proofs.«181184_j32744830665380_2_alg».proof.Proof.KBlocks2

set_option maxRecDepth 16384

noncomputable section

namespace Cert.KernelIdeal.Chain

open Cert.KernelIdeal Cert.KernelIdeal.Gen Cert.KernelIdeal.HostV
open Idealize.ShloMosaic Idealize.ShloMosaic.TcCoe Idealize.SL.Sem

variable (m : (ℓ : Loc nD τ sig) → Buf (Elt Ideal) ℓ) (ρ : Dev nD → PrngReg) (c : Dev nD)

section
variable
  (final0 : ∀ (V : (c : Dev nD) → (b : Ref sig .tc) → Buf (Elt Ideal) ((c : Thread nD τ).loc b)) (c : Dev nD),
    (dat0 (F := Ideal) V c).arrAt 3 cfg0.N
      = Cert.Net.relu (Cert.Net.dense (Cert.Net.relu (V c main_arg0)) (V c main_arg5) (Cert.Net.rowVec (V c main_v2))))
  (final1 : ∀ (V : (c : Dev nD) → (b : Ref sig .tc) → Buf (Elt Ideal) ((c : Thread nD τ).loc b)) (c : Dev nD),
    (dat1 (F := Ideal) V c).arrAt 3 cfg1.N
      = Cert.Net.relu (Cert.Net.dense (V c main_v3) (V c main_arg3) (Cert.Net.rowVec (V c main_v4))))
  (final2 : ∀ (V : (c : Dev nD) → (b : Ref sig .tc) → Buf (Elt Ideal) ((c : Thread nD τ).loc b)) (c : Dev nD),
    (dat2 (F := Ideal) V c).arrAt 3 cfg2.N
      = Cert.Net.dense (V c main_v5) (V c main_v0) (Cert.Net.rowVec (V c main_v6)))

include final0 final1 final2 in
theorem value_of_finals : W11 m ρ c (Proc.devRef .tc main_v8)
    = Cert.Net.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have h10 : W10 m ρ c (Proc.devRef .tc main_v7) = (dat2 (F := Ideal) (V9 m ρ) c).arrAt 3 cfg2.N := W10_arr m ρ c 3
  have h8 : W8 m ρ c (Proc.devRef .tc main_v5) = (dat1 (F := Ideal) (V7 m ρ) c).arrAt 3 cfg1.N := W8_arr m ρ c 3
  have h6 : W6 m ρ c (Proc.devRef .tc main_v3) = (dat0 (F := Ideal) (V5 m ρ) c).arrAt 3 cfg0.N := W6_arr m ρ c 3
  rw [W11_v8, h10, final2 (V9 m ρ) c]
  show extractStridedSlice S1024x1000 ![0, 0]
      (Cert.Net.dense (W9 m ρ c (Proc.devRef .tc main_v5)) (W9 m ρ c (Proc.devRef .tc main_v0))
        (Cert.Net.rowVec (W9 m ρ c (Proc.devRef .tc main_v6)))) slices_S1024x1024_S1024x1000_0_0 = _
  rw [W9_v5, W9_v0, W9_v6, h8, final1 (V7 m ρ) c]
  show extractStridedSlice S1024x1000 ![0, 0]
      (Cert.Net.dense (Cert.Net.relu (Cert.Net.dense (W7 m ρ c (Proc.devRef .tc main_v3)) (W7 m ρ c (Proc.devRef .tc main_arg3))
          (Cert.Net.rowVec (W7 m ρ c (Proc.devRef .tc main_v4))))) _ _) slices_S1024x1024_S1024x1000_0_0 = _
  rw [W7_v3, W7_arg3, W7_v4, h6, final0 (V5 m ρ) c]
  show extractStridedSlice S1024x1000 ![0, 0]
      (Cert.Net.dense (Cert.Net.relu (Cert.Net.dense (Cert.Net.relu (Cert.Net.dense (Cert.Net.relu (W5 m ρ c (Proc.devRef .tc main_arg0)))
          (W5 m ρ c (Proc.devRef .tc main_arg5)) (Cert.Net.rowVec (W5 m ρ c (Proc.devRef .tc main_v2))))) _ _)) _ _)
        slices_S1024x1024_S1024x1000_0_0 = _
  rw [W5_arg0, W5_arg5, W5_v2, Cert.Net.rowVec_shapeCast, Cert.Net.rowVec_shapeCast]
  exact Cert.Net.dense_pad_cut _ _ _ _ _ _ _ _ _

end

/-- The result buffer's last contents are the network of the seven arguments. -/
theorem value : W11 m ρ c (Proc.devRef .tc main_v8)
    = Cert.Net.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  value_of_finals m ρ c Cert.KernelIdeal.Blocks.final0 Cert.KernelIdeal.Blocks.final1 Cert.KernelIdeal.Blocks.final2

end Cert.KernelIdeal.Chain

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  Finite inputs are arrays of real numbers.

  The precondition is one bit: the conjunction, over the seven argument arrays, of "every entry's absolute value is below
  the f32 word of +infinity". When that bit is 1 each conjunct is 1, each `all` gives its bit at every entry, and an
  extended real whose absolute value is below +infinity is a real number.
-/
import proofs.«181184_j32744830665380_2_alg».proof.Pre_finite_inputs
import proofs.«181184_j32744830665380_2_alg».proof.Proof.Net
import proofs.«181184_j32744830665380_2_alg».proof.Proof.LibSums
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- One conjunct: an array whose "all entries below +infinity in absolute value" bit is 1 is an array of real numbers. -/
theorem isReal_of_all {S : Shape} {axes : List (Fin S.rank)} (x : FVec Ideal S .f32)
    (hb : S_.BroadcastsInDim S (![] : Fin 0 → Fin S.rank)) (hr : S.ReducesTo axes S_) (hu : 0 < S_.numel) (init : IVec S_ 1)
    (e : Host.reduce IntOp.andi (cmpf .olt (Host.absf x) (broadcastInDim S ![] hb (constant (F := Ideal) S_ .f32 0x7F800000#32))) init hr hu
      ValueIdx.ix0 = 1#1) : Cert.Net.IsReal x := fun i =>
  Cert.LibSums.real_of_finite_bit (x i) (Host.reduce_andi_all _ init hr hu ValueIdx.ix0 e i)

variable [Cert.Pre_finite_inputs.Facts]

/-- The precondition's bit gives the seven arrays real. -/
theorem args_real (a0 : FVec Ideal S1024x4096 .f32) (a1 : FVec Ideal S1000x2048 .f32) (a2 : FVec Ideal S1000 .f32)
    (a3 : FVec Ideal S2048x1024 .f32) (a4 : FVec Ideal S2048 .f32) (a5 : FVec Ideal S1024x4096 .f32) (a6 : FVec Ideal S1024 .f32)
    (h : fn (F := Ideal) a0 a1 a2 a3 a4 a5 a6 = fun _ => 1#1) :
    Cert.Net.IsReal a0 ∧ Cert.Net.IsReal a1 ∧ Cert.Net.IsReal a2 ∧ Cert.Net.IsReal a3 ∧ Cert.Net.IsReal a4
      ∧ Cert.Net.IsReal a5 ∧ Cert.Net.IsReal a6 := by
  have e := congrFun h ValueIdx.ix0
  dsimp only [fn, fn_part1] at e
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨isReal_of_all a0 _ _ _ _ h0, isReal_of_all a1 _ _ _ _ h1, isReal_of_all a2 _ _ _ _ h2, isReal_of_all a3 _ _ _ _ h3,
    isReal_of_all a4 _ _ _ _ h4, isReal_of_all a5 _ _ _ _ h5, isReal_of_all a6 _ _ _ _ h6⟩

end Cert.Finite

end
-- ==== Proof.RefLayers.lean ====
/-
  The reference's building blocks as whole-array functions, in the host operations' own spelling.

  A layer's prediction from the state below it: rectify that state, multiply by the transposed weight matrix, add the bias
  laid out as a row and repeated over the batch. A layer's error: its state minus its prediction. One relaxation step moves
  a state by a tenth of (minus its error, plus — below the top layer — the error of the layer above carried back through
  that layer's weights and gated by the sign of the state).
-/
import proofs.«181184_j32744830665380_2_alg».proof.Proof.Gen.ReferenceIdeal
import Idealize.ShloMosaic.PureOps.Ideal

noncomputable section

namespace Cert.Ref

open Cert.ReferenceIdeal Cert.ReferenceIdeal.Gen Idealize.ShloMosaic

/-- The prediction of the 1024-unit layer from the observation. -/
def pred2 (obs W2 : FVec Ideal S1024x4096 .f32) (b2 : FVec Ideal S1024 .f32) : FVec Ideal S1024x1024 .f32 :=
  addf (Host.dotGeneral dot_S1024x4096_S4096x1024_S1024x1024_1_0_0_1_n_n none
      (maximumf obs (broadcastInDim S1024x4096 ![] bcast_S_S1024x4096 (constant S_ .f32 0x00000000#32)))
      (transpose S4096x1024 [1, 0] W2 transposes_S1024x4096_S4096x1024_1_0))
    (broadcastInDim S1024x1024 ![0, 1] bcast_S1x1024_S1024x1024_0_1 (broadcastInDim S1x1024 ![1] bcast_S1024_S1x1024_1 b2))

/-- The prediction of the 2048-unit layer from the 1024-unit layer's state. -/
def pred1 (a2 : FVec Ideal S1024x1024 .f32) (W1 : FVec Ideal S2048x1024 .f32) (b1 : FVec Ideal S2048 .f32) : FVec Ideal S1024x2048 .f32 :=
  addf (Host.dotGeneral dot_S1024x1024_S1024x2048_S1024x2048_1_0_0_1_n_n none
      (maximumf a2 (broadcastInDim S1024x1024 ![] bcast_S_S1024x1024 (constant S_ .f32 0x00000000#32)))
      (transpose S1024x2048 [1, 0] W1 transposes_S2048x1024_S1024x2048_1_0))
    (broadcastInDim S1024x2048 ![0, 1] bcast_S1x2048_S1024x2048_0_1 (broadcastInDim S1x2048 ![1] bcast_S2048_S1x2048_1 b1))

/-- The prediction of the class layer from the 2048-unit layer's state. -/
def pred0 (a1 : FVec Ideal S1024x2048 .f32) (W0 : FVec Ideal S1000x2048 .f32) (b0 : FVec Ideal S1000 .f32) : FVec Ideal S1024x1000 .f32 :=
  addf (Host.dotGeneral dot_S1024x2048_S2048x1000_S1024x1000_1_0_0_1_n_n none
      (maximumf a1 (broadcastInDim S1024x2048 ![] bcast_S_S1024x2048 (constant S_ .f32 0x00000000#32)))
      (transpose S2048x1000 [1, 0] W0 transposes_S1000x2048_S2048x1000_1_0))
    (broadcastInDim S1024x1000 ![0, 1] bcast_S1x1000_S1024x1000_0_1 (broadcastInDim S1x1000 ![1] bcast_S1000_S1x1000_1 b0))

/-- One step of the 1024-unit layer's state: its own error `e2`, and the error `e1` of the layer above through `W1`. -/
def upd2 (a2 e2 : FVec Ideal S1024x1024 .f32) (e1 : FVec Ideal S1024x2048 .f32) (W1 : FVec Ideal S2048x1024 .f32) : FVec Ideal S1024x1024 .f32 :=
  addf a2 (mulf (broadcastInDim S1024x1024 ![] bcast_S_S1024x1024 (constant S_ .f32 0x3DCCCCCD#32))
    (addf (Host.negf e2)
      (mulf (mulf (broadcastInDim S1024x1024 ![] bcast_S_S1024x1024 (constant S_ .f32 0x3F800000#32))
          (uitofp .f32 (cmpf .ogt a2 (broadcastInDim S1024x1024 ![] bcast_S_S1024x1024 (constant S_ .f32 0x00000000#32)))))
        (Host.dotGeneral dot_S1024x2048_S2048x1024_S1024x1024_1_0_0_1_n_n none e1 W1))))

/-- One step of the 2048-unit layer's state: its own error `e1`, and the error `e0` of the class layer through `W0`. -/
def upd1 (a1 e1 : FVec Ideal S1024x2048 .f32) (e0 : FVec Ideal S1024x1000 .f32) (W0 : FVec Ideal S1000x2048 .f32) : FVec Ideal S1024x2048 .f32 :=
  addf a1 (mulf (broadcastInDim S1024x2048 ![] bcast_S_S1024x2048 (constant S_ .f32 0x3DCCCCCD#32))
    (addf (Host.negf e1)
      (mulf (mulf (broadcastInDim S1024x2048 ![] bcast_S_S1024x2048 (constant S_ .f32 0x3F800000#32))
          (uitofp .f32 (cmpf .ogt a1 (broadcastInDim S1024x2048 ![] bcast_S_S1024x2048 (constant S_ .f32 0x00000000#32)))))
        (Host.dotGeneral dot_S1024x1000_S1000x2048_S1024x2048_1_0_0_1_n_n none e0 W0))))

/-- One step of the class layer's state: only its own error. -/
def upd0 (a0 e0 : FVec Ideal S1024x1000 .f32) : FVec Ideal S1024x1000 .f32 :=
  addf a0 (mulf (broadcastInDim S1024x1000 ![] bcast_S_S1024x1000 (constant S_ .f32 0x3DCCCCCD#32)) (Host.negf e0))

end Cert.Ref

end
-- ==== Proof.RefCollapse.lean ====
/-
  The relaxation steps of the reference change nothing when every state is an array of real numbers.

  A layer's error is its state minus its prediction; when the state IS the prediction and its entries are real numbers,
  every entry of the error is x − x = 0 (on the extended reals x − x = 0 needs x real: ⊤ − ⊤ is not 0). One step adds to a
  state a tenth of (minus its own error, plus a 0/1 mask times the error of the layer above carried through that layer's
  weights). With both errors the zero array, minus zero is zero, every entry of the carried error is a sum of products
  0 · w, and 0 · w = 0 for every extended real w, the mask times zero is zero, a tenth of zero is zero, and the state plus
  zero is the state.
-/
import proofs.«181184_j32744830665380_2_alg».proof.Proof.RefLayers
import proofs.«181184_j32744830665380_2_alg».proof.Proof.Net
import Idealize.ShloMosaic.PureOps.Ideal.Laws
import Idealize.ShloMosaic.Lib.ValueIdx

noncomputable section

open scoped BigOperators

namespace Cert.Ref

open Cert.ReferenceIdeal Cert.ReferenceIdeal.Gen Idealize.ShloMosaic Idealize.ShloMosaic.ValueIdx

/-- An array of real numbers minus itself is the zero array. -/
theorem err_self {S : Shape} (x : FVec Ideal S .f32) (h : Cert.Net.IsReal x) : subf x x = fun _ => (0 : EReal) := by
  funext i
  obtain ⟨r, hr⟩ := h i
  rw [subf_apply, hr, ← EReal.coe_sub, sub_self, EReal.coe_zero]

/-- The negation of the zero array is the zero array. -/
theorem hostNegf_zero {S : Shape} :
    Host.negf (F := Ideal) (φ := .f32) (fun _ : S.Idx => (0 : EReal)) = fun _ => (0 : EReal) := by
  funext i
  show -(0 : EReal) = 0
  exact neg_zero

/-- The product of the zero array with any matrix is the zero array: every entry is a sum of products 0 · w. -/
theorem hostDot_zero_left {sl sr so : Shape} (d : DotDims sl sr so) (W : FVec Ideal sr .f32) :
    Host.dotGeneral (F := Ideal) (φ₁ := .f32) (φ₂ := .f32) d none (fun _ : sl.Idx => (0 : EReal)) W = fun _ => (0 : EReal) := by
  funext j
  show FloatOps.dotGeneral (F := Ideal) (φ₁ := .f32) (φ₂ := .f32) d none .single (fun _ : sl.Idx => (0 : EReal)) W j = 0
  rw [Ideal.dotGeneral_apply]
  exact Finset.sum_eq_zero fun k _ => zero_mul _

/-- One step of the 1024-unit layer with both errors zero leaves the state as it is. -/
theorem upd2_zero (a2 : FVec Ideal S1024x1024 .f32) (W1 : FVec Ideal S2048x1024 .f32) :
    upd2 a2 (fun _ => 0) (fun _ => 0) W1 = a2 := by
  funext i
  have hn := congrFun (hostNegf_zero (S := S1024x1024)) i
  have hd := congrFun (hostDot_zero_left dot_S1024x2048_S2048x1024_S1024x1024_1_0_0_1_n_n W1) i
  unfold upd2
  rw [addf_apply, mulf_apply, addf_apply, mulf_apply]
  rw [hn, hd, mul_zero, add_zero, mul_zero, add_zero]

/-- One step of the 2048-unit layer with both errors zero leaves the state as it is. -/
theorem upd1_zero (a1 : FVec Ideal S1024x2048 .f32) (W0 : FVec Ideal S1000x2048 .f32) :
    upd1 a1 (fun _ => 0) (fun _ => 0) W0 = a1 := by
  funext i
  have hn := congrFun (hostNegf_zero (S := S1024x2048)) i
  have hd := congrFun (hostDot_zero_left dot_S1024x1000_S1000x2048_S1024x2048_1_0_0_1_n_n W0) i
  unfold upd1
  rw [addf_apply, mulf_apply, addf_apply, mulf_apply]
  rw [hn, hd, mul_zero, add_zero, mul_zero, add_zero]

/-- One step of the class layer with its error zero leaves the state as it is. -/
theorem upd0_zero (a0 : FVec Ideal S1024x1000 .f32) : upd0 a0 (fun _ => 0) = a0 := by
  funext i
  have hn := congrFun (hostNegf_zero (S := S1024x1000)) i
  unfold upd0
  rw [addf_apply, mulf_apply]
  rw [hn, mul_zero, add_zero]

end Cert.Ref

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«181184_j32744830665380_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.RefValue.lean ====
/-
  Each prediction of the reference is a fully connected layer of the rectified state below it.

  Read at (p, q): the host's product of the rectified state by the transposed weight matrix is the sum over k of
  max (l (p, k)) z · Wᵀ (k, q), the transposed matrix at (k, q) is the matrix at (q, k), the bias laid out as a row and
  repeated over the batch is b (q), and the scalar the rectifier repeats is the number the zero word denotes. A layer of
  real numbers with real weights and bias is an array of real numbers.
-/
import proofs.«181184_j32744830665380_2_alg».proof.Proof.RefLayers
import proofs.«181184_j32744830665380_2_alg».proof.Proof.Net
import proofs.«181184_j32744830665380_2_alg».proof.Proof.LibHostDense
import Idealize.ShloMosaic.Lib.Pipeline.Value

noncomputable section

open scoped BigOperators

namespace Cert.Ref

open Cert.ReferenceIdeal Cert.ReferenceIdeal.Gen Idealize.ShloMosaic Idealize.ShloMosaic.ValueIdx
open Cert.LibHostDense

/-- The transpose of an [m, n] matrix reads, at (k, q), the matrix at (q, k). -/
theorem transpose2_apply {α : Type} {m n : ℕ} (x : (⟨2, ![m, n]⟩ : Shape).Idx → α)
    (h : (⟨2, ![m, n]⟩ : Shape).Transposes [1, 0] ⟨2, ![n, m]⟩) (k : Fin n) (q : Fin m) :
    transpose ⟨2, ![n, m]⟩ [1, 0] x h (ix2 k q) = x (ix2 q k) := by
  refine transpose_apply [1, 0] x h (ix2 k q) (ix2 q k) fun b => ?_
  match b with
  | ⟨0, _⟩ => rfl
  | ⟨1, _⟩ => rfl

/-- The prediction of the 1024-unit layer is the layer of the rectified observation. -/
theorem pred2_eq (obs W2 : FVec Ideal S1024x4096 .f32) (b2 : FVec Ideal S1024 .f32) :
    pred2 obs W2 b2 = Cert.Net.dense (Cert.Net.relu obs) W2 b2 := by
  funext i
  obtain ⟨p, q, rfl⟩ : ∃ (p : Fin 1024) (q : Fin 1024), i = ix2 p q := ⟨i 0, i 1, eq_ix2 i⟩
  unfold pred2
  rw [addf_apply, hostDot_plain_apply _ rfl rfl rfl rfl rfl rfl, bcastRows_apply, bcastRow_apply, Cert.Net.dense_apply]
  congr 1
  refine Finset.sum_congr rfl fun k _ => ?_
  rw [maximumf_apply, bcastScalar_apply, constant_apply, transpose2_apply, Cert.Net.relu_apply]

/-- The prediction of the 2048-unit layer is the layer of the rectified 1024-unit state. -/
theorem pred1_eq (a2 : FVec Ideal S1024x1024 .f32) (W1 : FVec Ideal S2048x1024 .f32) (b1 : FVec Ideal S2048 .f32) :
    pred1 a2 W1 b1 = Cert.Net.dense (Cert.Net.relu a2) W1 b1 := by
  funext i
  obtain ⟨p, q, rfl⟩ : ∃ (p : Fin 1024) (q : Fin 2048), i = ix2 p q := ⟨i 0, i 1, eq_ix2 i⟩
  unfold pred1
  rw [addf_apply, hostDot_plain_apply _ rfl rfl rfl rfl rfl rfl, bcastRows_apply, bcastRow_apply, Cert.Net.dense_apply]
  congr 1
  refine Finset.sum_congr rfl fun k _ => ?_
  rw [maximumf_apply, bcastScalar_apply, constant_apply, transpose2_apply, Cert.Net.relu_apply]

/-- The prediction of the class layer is the layer of the rectified 2048-unit state. -/
theorem pred0_eq (a1 : FVec Ideal S1024x2048 .f32) (W0 : FVec Ideal S1000x2048 .f32) (b0 : FVec Ideal S1000 .f32) :
    pred0 a1 W0 b0 = Cert.Net.dense (Cert.Net.relu a1) W0 b0 := by
  funext i
  obtain ⟨p, q, rfl⟩ : ∃ (p : Fin 1024) (q : Fin 1000), i = ix2 p q := ⟨i 0, i 1, eq_ix2 i⟩
  unfold pred0
  rw [addf_apply, hostDot_plain_apply _ rfl rfl rfl rfl rfl rfl, bcastRows_apply, bcastRow_apply, Cert.Net.dense_apply]
  congr 1
  refine Finset.sum_congr rfl fun k _ => ?_
  rw [maximumf_apply, bcastScalar_apply, constant_apply, transpose2_apply, Cert.Net.relu_apply]

/-- A prediction from real numbers is an array of real numbers. -/
theorem isReal_pred2 {obs W2 : FVec Ideal S1024x4096 .f32} {b2 : FVec Ideal S1024 .f32}
    (h0 : Cert.Net.IsReal obs) (h5 : Cert.Net.IsReal W2) (h6 : Cert.Net.IsReal b2) : Cert.Net.IsReal (pred2 obs W2 b2) := by
  rw [pred2_eq]
  exact Cert.Net.isReal_dense (Cert.Net.isReal_relu h0) h5 h6

theorem isReal_pred1 {a2 : FVec Ideal S1024x1024 .f32} {W1 : FVec Ideal S2048x1024 .f32} {b1 : FVec Ideal S2048 .f32}
    (ha : Cert.Net.IsReal a2) (h3 : Cert.Net.IsReal W1) (h4 : Cert.Net.IsReal b1) : Cert.Net.IsReal (pred1 a2 W1 b1) := by
  rw [pred1_eq]
  exact Cert.Net.isReal_dense (Cert.Net.isReal_relu ha) h3 h4

theorem isReal_pred0 {a1 : FVec Ideal S1024x2048 .f32} {W0 : FVec Ideal S1000x2048 .f32} {b0 : FVec Ideal S1000 .f32}
    (ha : Cert.Net.IsReal a1) (h1 : Cert.Net.IsReal W0) (h2 : Cert.Net.IsReal b0) : Cert.Net.IsReal (pred0 a1 W0 b0) := by
  rw [pred0_eq]
  exact Cert.Net.isReal_dense (Cert.Net.isReal_relu ha) h1 h2

end Cert.Ref

end
-- ==== Proof.RefWin0.lean ====
/-
  The reference's opening line of host operations, read from ARBITRARY buffer contents `V`. It reads only the seven
  arguments. It leaves the three initial states — main_v5, the 1024-unit layer's prediction from the observation;
  main_v11, the 2048-unit layer's prediction from that state; main_v17, the class layer's prediction from that one — and
  the three initial errors main_v39, main_v32, main_v25: each a state minus the SAME prediction computed a second time,
  so each is of the form x − x. It writes no argument buffer.
  Every statement is the fold of the operations' results at one buffer, computed by rewriting each operation's result at
  its own buffer to its function's value and at every other buffer to what was there; what remains is the layer functions'
  own text.
-/
import proofs.«181184_j32744830665380_2_alg».proof.Proof.RefOps
import proofs.«181184_j32744830665380_2_alg».proof.Proof.RefLayers

noncomputable section

namespace Cert.RefWin0

open Cert.ReferenceIdeal Cert.ReferenceIdeal.Gen Cert.ReferenceIdeal.RunW Cert.Ref
open Idealize.ShloMosaic Idealize.ShloMosaic.TcCoe Idealize.SL.Sem Idealize.ShloMosaic.StableHlo

set_option maxHeartbeats 4000000 in
/-- The 1024-unit layer's initial state: its prediction from the observation. -/
theorem a2 (V : Valuation τ sig (Elt Ideal)) :
    after (ops0 (F := Ideal)) V (Proc.devRef .tc main_v5) =
      pred2 (V (Proc.devRef .tc main_arg0)) (V (Proc.devRef .tc main_arg5)) (V (Proc.devRef .tc main_arg6)) := by
  after_results_simp
  rfl

set_option maxHeartbeats 4000000 in
/-- The 2048-unit layer's initial state: its prediction from the state below. -/
theorem a1 (V : Valuation τ sig (Elt Ideal)) :
    after (ops0 (F := Ideal)) V (Proc.devRef .tc main_v11) =
      pred1 (pred2 (V (Proc.devRef .tc main_arg0)) (V (Proc.devRef .tc main_arg5)) (V (Proc.devRef .tc main_arg6))) (V (Proc.devRef .tc main_arg3)) (V (Proc.devRef .tc main_arg4)) := by
  after_results_simp
  rfl

set_option maxHeartbeats 4000000 in
/-- The class layer's initial state: its prediction from the state below. -/
theorem a0 (V : Valuation τ sig (Elt Ideal)) :
    after (ops0 (F := Ideal)) V (Proc.devRef .tc main_v17) =
      pred0 (pred1 (pred2 (V (Proc.devRef .tc main_arg0)) (V (Proc.devRef .tc main_arg5)) (V (Proc.devRef .tc main_arg6))) (V (Proc.devRef .tc main_arg3)) (V (Proc.devRef .tc main_arg4))) (V (Proc.devRef .tc main_arg1)) (V (Proc.devRef .tc main_arg2)) := by
  after_results_simp
  rfl

set_option maxHeartbeats 4000000 in
/-- The 1024-unit layer's initial error: its state minus the same prediction again. -/
theorem e2 (V : Valuation τ sig (Elt Ideal)) :
    after (ops0 (F := Ideal)) V (Proc.devRef .tc main_v39) =
      subf (pred2 (V (Proc.devRef .tc main_arg0)) (V (Proc.devRef .tc main_arg5)) (V (Proc.devRef .tc main_arg6))) (pred2 (V (Proc.devRef .tc main_arg0)) (V (Proc.devRef .tc main_arg5)) (V (Proc.devRef .tc main_arg6))) := by
  after_results_simp
  rfl

set_option maxHeartbeats 4000000 in
/-- The 2048-unit layer's initial error: its state minus the same prediction again. -/
theorem e1 (V : Valuation τ sig (Elt Ideal)) :
    after (ops0 (F := Ideal)) V (Proc.devRef .tc main_v32) =
      subf (pred1 (pred2 (V (Proc.devRef .tc main_arg0)) (V (Proc.devRef .tc main_arg5)) (V (Proc.devRef .tc main_arg6))) (V (Proc.devRef .tc main_arg3)) (V (Proc.devRef .tc main_arg4))) (pred1 (pred2 (V (Proc.devRef .tc main_arg0)) (V (Proc.devRef .tc main_arg5)) (V (Proc.devRef .tc main_arg6))) (V (Proc.devRef .tc main_arg3)) (V (Proc.devRef .tc main_arg4))) := by
  after_results_simp
  rfl

set_option maxHeartbeats 4000000 in
/-- The class layer's initial error: its state minus the same prediction again. -/
theorem e0 (V : Valuation τ sig (Elt Ideal)) :
    after (ops0 (F := Ideal)) V (Proc.devRef .tc main_v25) =
      subf (pred0 (pred1 (pred2 (V (Proc.devRef .tc main_arg0)) (V (Proc.devRef .tc main_arg5)) (V (Proc.devRef .tc main_arg6))) (V (Proc.devRef .tc main_arg3)) (V (Proc.devRef .tc main_arg4))) (V (Proc.devRef .tc main_arg1)) (V (Proc.devRef .tc main_arg2))) (pred0 (pred1 (pred2 (V (Proc.devRef .tc main_arg0)) (V (Proc.devRef .tc main_arg5)) (V (Proc.devRef .tc main_arg6))) (V (Proc.devRef .tc main_arg3)) (V (Proc.devRef .tc main_arg4))) (V (Proc.devRef .tc main_arg1)) (V (Proc.devRef .tc main_arg2))) := by
  after_results_simp
  rfl

set_option maxHeartbeats 4000000 in
/-- The line leaves argument 0 as it was. -/
theorem arg0 (V : Valuation τ sig (Elt Ideal)) :
    after (ops0 (F := Ideal)) V (Proc.devRef .tc main_arg0) =
      V (Proc.devRef .tc main_arg0) := by
  after_results_simp

set_option maxHeartbeats 4000000 in
/-- The line leaves argument 1 as it was. -/
theorem arg1 (V : Valuation τ sig (Elt Ideal)) :
    after (ops0 (F := Ideal)) V (Proc.devRef .tc main_arg1) =
      V (Proc.devRef .tc main_arg1) := by
  after_results_simp

set_option maxHeartbeats 4000000 in
/-- The line leaves argument 2 as it was. -/
theorem arg2 (V : Valuation τ sig (Elt Ideal)) :
    after (ops0 (F := Ideal)) V (Proc.devRef .tc main_arg2) =
      V (Proc.devRef .tc main_arg2) := by
  after_results_simp

set_option maxHeartbeats 4000000 in
/-- The line leaves argument 3 as it was. -/
theorem arg3 (V : Valuation τ sig (Elt Ideal)) :
    after (ops0 (F := Ideal)) V (Proc.devRef .tc main_arg3) =
      V (Proc.devRef .tc main_arg3) := by
  after_results_simp

set_option maxHeartbeats 4000000 in
/-- The line leaves argument 4 as it was. -/
theorem arg4 (V : Valuation τ sig (Elt Ideal)) :
    after (ops0 (F := Ideal)) V (Proc.devRef .tc main_arg4) =
      V (Proc.devRef .tc main_arg4) := by
  after_results_simp

set_option maxHeartbeats 4000000 in
/-- The line leaves argument 5 as it was. -/
theorem arg5 (V : Valuation τ sig (Elt Ideal)) :
    after (ops0 (F := Ideal)) V (Proc.devRef .tc main_arg5) =
      V (Proc.devRef .tc main_arg5) := by
  after_results_simp

set_option maxHeartbeats 4000000 in
/-- The line leaves argument 6 as it was. -/
theorem arg6 (V : Valuation τ sig (Elt Ideal)) :
    after (ops0 (F := Ideal)) V (Proc.devRef .tc main_arg6) =
      V (Proc.devRef .tc main_arg6) := by
  after_results_simp

end Cert.RefWin0

end
-- ==== Proof.RefWin1.lean ====
/-
  The first relaxation step of the reference, read as one line of host operations from ARBITRARY buffer contents `V`.
  The line reads the three states (main_v5, main_v11, main_v17), the three errors (main_v39, main_v32, main_v25) and the seven
  arguments; it leaves the moved states in main_v52, main_v64, main_v68 — each the layer's one-step update of its old state —
  and the errors of the moved states in main_v75, main_v82, main_v89 — each a moved state minus the layer's prediction from the
  moved state below it (from the observation, for the lowest layer); it writes no argument buffer.
  Every statement is the fold of the operations' results at one buffer, computed by rewriting each operation's result at
  its own buffer to its function's value and at every other buffer to what was there; what remains is the layer functions'
  own text.
-/
import proofs.«181184_j32744830665380_2_alg».proof.Proof.RefOps
import proofs.«181184_j32744830665380_2_alg».proof.Proof.RefLayers

noncomputable section

namespace Cert.RefWin1

open Cert.ReferenceIdeal Cert.ReferenceIdeal.Gen Cert.ReferenceIdeal.RunW Cert.Ref
open Idealize.ShloMosaic Idealize.ShloMosaic.TcCoe Idealize.SL.Sem Idealize.ShloMosaic.StableHlo

set_option maxHeartbeats 4000000 in
/-- The 1024-unit layer's state after the step. -/
theorem a2 (V : Valuation τ sig (Elt Ideal)) :
    after (ops1 (F := Ideal)) V (Proc.devRef .tc main_v52) =
      upd2 (V (Proc.devRef .tc main_v5)) (V (Proc.devRef .tc main_v39)) (V (Proc.devRef .tc main_v32)) (V (Proc.devRef .tc main_arg3)) := by
  after_results_simp
  rfl

set_option maxHeartbeats 4000000 in
/-- The 2048-unit layer's state after the step. -/
theorem a1 (V : Valuation τ sig (Elt Ideal)) :
    after (ops1 (F := Ideal)) V (Proc.devRef .tc main_v64) =
      upd1 (V (Proc.devRef .tc main_v11)) (V (Proc.devRef .tc main_v32)) (V (Proc.devRef .tc main_v25)) (V (Proc.devRef .tc main_arg1)) := by
  after_results_simp
  rfl

set_option maxHeartbeats 4000000 in
/-- The class layer's state after the step. -/
theorem a0 (V : Valuation τ sig (Elt Ideal)) :
    after (ops1 (F := Ideal)) V (Proc.devRef .tc main_v68) =
      upd0 (V (Proc.devRef .tc main_v17)) (V (Proc.devRef .tc main_v25)) := by
  after_results_simp
  rfl

set_option maxHeartbeats 4000000 in
/-- The 1024-unit layer's error after the step: the moved state minus its prediction from the observation. -/
theorem e2 (V : Valuation τ sig (Elt Ideal)) :
    after (ops1 (F := Ideal)) V (Proc.devRef .tc main_v75) =
      subf (upd2 (V (Proc.devRef .tc main_v5)) (V (Proc.devRef .tc main_v39)) (V (Proc.devRef .tc main_v32)) (V (Proc.devRef .tc main_arg3))) (pred2 (V (Proc.devRef .tc main_arg0)) (V (Proc.devRef .tc main_arg5)) (V (Proc.devRef .tc main_arg6))) := by
  after_results_simp
  rfl

set_option maxHeartbeats 4000000 in
/-- The 2048-unit layer's error after the step: the moved state minus its prediction from the moved state below. -/
theorem e1 (V : Valuation τ sig (Elt Ideal)) :
    after (ops1 (F := Ideal)) V (Proc.devRef .tc main_v82) =
      subf (upd1 (V (Proc.devRef .tc main_v11)) (V (Proc.devRef .tc main_v32)) (V (Proc.devRef .tc main_v25)) (V (Proc.devRef .tc main_arg1))) (pred1 (upd2 (V (Proc.devRef .tc main_v5)) (V (Proc.devRef .tc main_v39)) (V (Proc.devRef .tc main_v32)) (V (Proc.devRef .tc main_arg3))) (V (Proc.devRef .tc main_arg3)) (V (Proc.devRef .tc main_arg4))) := by
  after_results_simp
  rfl

set_option maxHeartbeats 4000000 in
/-- The class layer's error after the step: the moved state minus its prediction from the moved state below. -/
theorem e0 (V : Valuation τ sig (Elt Ideal)) :
    after (ops1 (F := Ideal)) V (Proc.devRef .tc main_v89) =
      subf (upd0 (V (Proc.devRef .tc main_v17)) (V (Proc.devRef .tc main_v25))) (pred0 (upd1 (V (Proc.devRef .tc main_v11)) (V (Proc.devRef .tc main_v32)) (V (Proc.devRef .tc main_v25)) (V (Proc.devRef .tc main_arg1))) (V (Proc.devRef .tc main_arg1)) (V (Proc.devRef .tc main_arg2))) := by
  after_results_simp
  rfl

set_option maxHeartbeats 4000000 in
/-- The step leaves argument 0 as it was. -/
theorem arg0 (V : Valuation τ sig (Elt Ideal)) :
    after (ops1 (F := Ideal)) V (Proc.devRef .tc main_arg0) =
      V (Proc.devRef .tc main_arg0) := by
  after_results_simp

set_option maxHeartbeats 4000000 in
/-- The step leaves argument 1 as it was. -/
theorem arg1 (V : Valuation τ sig (Elt Ideal)) :
    after (ops1 (F := Ideal)) V (Proc.devRef .tc main_arg1) =
      V (Proc.devRef .tc main_arg1) := by
  after_results_simp

set_option maxHeartbeats 4000000 in
/-- The step leaves argument 2 as it was. -/
theorem arg2 (V : Valuation τ sig (Elt Ideal)) :
    after (ops1 (F := Ideal)) V (Proc.devRef .tc main_arg2) =
      V (Proc.devRef .tc main_arg2) := by
  after_results_simp

set_option maxHeartbeats 4000000 in
/-- The step leaves argument 3 as it was. -/
theorem arg3 (V : Valuation τ sig (Elt Ideal)) :
    after (ops1 (F := Ideal)) V (Proc.devRef .tc main_arg3) =
      V (Proc.devRef .tc main_arg3) := by
  after_results_simp

set_option maxHeartbeats 4000000 in
/-- The step leaves argument 4 as it was. -/
theorem arg4 (V : Valuation τ sig (Elt Ideal)) :
    after (ops1 (F := Ideal)) V (Proc.devRef .tc main_arg4) =
      V (Proc.devRef .tc main_arg4) := by
  after_results_simp

set_option maxHeartbeats 4000000 in
/-- The step leaves argument 5 as it was. -/
theorem arg5 (V : Valuation τ sig (Elt Ideal)) :
    after (ops1 (F := Ideal)) V (Proc.devRef .tc main_arg5) =
      V (Proc.devRef .tc main_arg5) := by
  after_results_simp

set_option maxHeartbeats 4000000 in
/-- The step leaves argument 6 as it was. -/
theorem arg6 (V : Valuation τ sig (Elt Ideal)) :
    after (ops1 (F := Ideal)) V (Proc.devRef .tc main_arg6) =
      V (Proc.devRef .tc main_arg6) := by
  after_results_simp

end Cert.RefWin1

end
-- ==== Proof.RefWin2.lean ====
/-
  The second relaxation step of the reference, read as one line of host operations from ARBITRARY buffer contents `V`.
  The line reads the three states (main_v52, main_v64, main_v68), the three errors (main_v75, main_v82, main_v89) and the seven
  arguments; it leaves the moved states in main_v101, main_v113, main_v117 — each the layer's one-step update of its old state —
  and the errors of the moved states in main_v124, main_v131, main_v138 — each a moved state minus the layer's prediction from the
  moved state below it (from the observation, for the lowest layer); it writes no argument buffer.
  Every statement is the fold of the operations' results at one buffer, computed by rewriting each operation's result at
  its own buffer to its function's value and at every other buffer to what was there; what remains is the layer functions'
  own text.
-/
import proofs.«181184_j32744830665380_2_alg».proof.Proof.RefOps
import proofs.«181184_j32744830665380_2_alg».proof.Proof.RefLayers

noncomputable section

namespace Cert.RefWin2

open Cert.ReferenceIdeal Cert.ReferenceIdeal.Gen Cert.ReferenceIdeal.RunW Cert.Ref
open Idealize.ShloMosaic Idealize.ShloMosaic.TcCoe Idealize.SL.Sem Idealize.ShloMosaic.StableHlo

set_option maxHeartbeats 4000000 in
/-- The 1024-unit layer's state after the step. -/
theorem a2 (V : Valuation τ sig (Elt Ideal)) :
    after (ops2 (F := Ideal)) V (Proc.devRef .tc main_v101) =
      upd2 (V (Proc.devRef .tc main_v52)) (V (Proc.devRef .tc main_v75)) (V (Proc.devRef .tc main_v82)) (V (Proc.devRef .tc main_arg3)) := by
  after_results_simp
  rfl

set_option maxHeartbeats 4000000 in
/-- The 2048-unit layer's state after the step. -/
theorem a1 (V : Valuation τ sig (Elt Ideal)) :
    after (ops2 (F := Ideal)) V (Proc.devRef .tc main_v113) =
      upd1 (V (Proc.devRef .tc main_v64)) (V (Proc.devRef .tc main_v82)) (V (Proc.devRef .tc main_v89)) (V (Proc.devRef .tc main_arg1)) := by
  after_results_simp
  rfl

set_option maxHeartbeats 4000000 in
/-- The class layer's state after the step. -/
theorem a0 (V : Valuation τ sig (Elt Ideal)) :
    after (ops2 (F := Ideal)) V (Proc.devRef .tc main_v117) =
      upd0 (V (Proc.devRef .tc main_v68)) (V (Proc.devRef .tc main_v89)) := by
  after_results_simp
  rfl

set_option maxHeartbeats 4000000 in
/-- The 1024-unit layer's error after the step: the moved state minus its prediction from the observation. -/
theorem e2 (V : Valuation τ sig (Elt Ideal)) :
    after (ops2 (F := Ideal)) V (Proc.devRef .tc main_v124) =
      subf (upd2 (V (Proc.devRef .tc main_v52)) (V (Proc.devRef .tc main_v75)) (V (Proc.devRef .tc main_v82)) (V (Proc.devRef .tc main_arg3))) (pred2 (V (Proc.devRef .tc main_arg0)) (V (Proc.devRef .tc main_arg5)) (V (Proc.devRef .tc main_arg6))) := by
  after_results_simp
  rfl

set_option maxHeartbeats 4000000 in
/-- The 2048-unit layer's error after the step: the moved state minus its prediction from the moved state below. -/
theorem e1 (V : Valuation τ sig (Elt Ideal)) :
    after (ops2 (F := Ideal)) V (Proc.devRef .tc main_v131) =
      subf (upd1 (V (Proc.devRef .tc main_v64)) (V (Proc.devRef .tc main_v82)) (V (Proc.devRef .tc main_v89)) (V (Proc.devRef .tc main_arg1))) (pred1 (upd2 (V (Proc.devRef .tc main_v52)) (V (Proc.devRef .tc main_v75)) (V (Proc.devRef .tc main_v82)) (V (Proc.devRef .tc main_arg3))) (V (Proc.devRef .tc main_arg3)) (V (Proc.devRef .tc main_arg4))) := by
  after_results_simp
  rfl

set_option maxHeartbeats 4000000 in
/-- The class layer's error after the step: the moved state minus its prediction from the moved state below. -/
theorem e0 (V : Valuation τ sig (Elt Ideal)) :
    after (ops2 (F := Ideal)) V (Proc.devRef .tc main_v138) =
      subf (upd0 (V (Proc.devRef .tc main_v68)) (V (Proc.devRef .tc main_v89))) (pred0 (upd1 (V (Proc.devRef .tc main_v64)) (V (Proc.devRef .tc main_v82)) (V (Proc.devRef .tc main_v89)) (V (Proc.devRef .tc main_arg1))) (V (Proc.devRef .tc main_arg1)) (V (Proc.devRef .tc main_arg2))) := by
  after_results_simp
  rfl

set_option maxHeartbeats 4000000 in
/-- The step leaves argument 0 as it was. -/
theorem arg0 (V : Valuation τ sig (Elt Ideal)) :
    after (ops2 (F := Ideal)) V (Proc.devRef .tc main_arg0) =
      V (Proc.devRef .tc main_arg0) := by
  after_results_simp

set_option maxHeartbeats 4000000 in
/-- The step leaves argument 1 as it was. -/
theorem arg1 (V : Valuation τ sig (Elt Ideal)) :
    after (ops2 (F := Ideal)) V (Proc.devRef .tc main_arg1) =
      V (Proc.devRef .tc main_arg1) := by
  after_results_simp

set_option maxHeartbeats 4000000 in
/-- The step leaves argument 2 as it was. -/
theorem arg2 (V : Valuation τ sig (Elt Ideal)) :
    after (ops2 (F := Ideal)) V (Proc.devRef .tc main_arg2) =
      V (Proc.devRef .tc main_arg2) := by
  after_results_simp

set_option maxHeartbeats 4000000 in
/-- The step leaves argument 3 as it was. -/
theorem arg3 (V : Valuation τ sig (Elt Ideal)) :
    after (ops2 (F := Ideal)) V (Proc.devRef .tc main_arg3) =
      V (Proc.devRef .tc main_arg3) := by
  after_results_simp

set_option maxHeartbeats 4000000 in
/-- The step leaves argument 4 as it was. -/
theorem arg4 (V : Valuation τ sig (Elt Ideal)) :
    after (ops2 (F := Ideal)) V (Proc.devRef .tc main_arg4) =
      V (Proc.devRef .tc main_arg4) := by
  after_results_simp

set_option maxHeartbeats 4000000 in
/-- The step leaves argument 5 as it was. -/
theorem arg5 (V : Valuation τ sig (Elt Ideal)) :
    after (ops2 (F := Ideal)) V (Proc.devRef .tc main_arg5) =
      V (Proc.devRef .tc main_arg5) := by
  after_results_simp

set_option maxHeartbeats 4000000 in
/-- The step leaves argument 6 as it was. -/
theorem arg6 (V : Valuation τ sig (Elt Ideal)) :
    after (ops2 (F := Ideal)) V (Proc.devRef .tc main_arg6) =
      V (Proc.devRef .tc main_arg6) := by
  after_results_simp

end Cert.RefWin2

end
-- ==== Proof.RefWin3.lean ====
/-
  The third relaxation step of the reference, read as one line of host operations from ARBITRARY buffer contents `V`.
  The line reads the three states (main_v101, main_v113, main_v117), the three errors (main_v124, main_v131, main_v138) and the seven
  arguments; it leaves the moved states in main_v150, main_v162, main_v166 — each the layer's one-step update of its old state —
  and the errors of the moved states in main_v173, main_v180, main_v187 — each a moved state minus the layer's prediction from the
  moved state below it (from the observation, for the lowest layer); it writes no argument buffer.
  Every statement is the fold of the operations' results at one buffer, computed by rewriting each operation's result at
  its own buffer to its function's value and at every other buffer to what was there; what remains is the layer functions'
  own text.
-/
import proofs.«181184_j32744830665380_2_alg».proof.Proof.RefOps
import proofs.«181184_j32744830665380_2_alg».proof.Proof.RefLayers

noncomputable section

namespace Cert.RefWin3

open Cert.ReferenceIdeal Cert.ReferenceIdeal.Gen Cert.ReferenceIdeal.RunW Cert.Ref
open Idealize.ShloMosaic Idealize.ShloMosaic.TcCoe Idealize.SL.Sem Idealize.ShloMosaic.StableHlo

set_option maxHeartbeats 4000000 in
/-- The 1024-unit layer's state after the step. -/
theorem a2 (V : Valuation τ sig (Elt Ideal)) :
    after (ops3 (F := Ideal)) V (Proc.devRef .tc main_v150) =
      upd2 (V (Proc.devRef .tc main_v101)) (V (Proc.devRef .tc main_v124)) (V (Proc.devRef .tc main_v131)) (V (Proc.devRef .tc main_arg3)) := by
  after_results_simp
  rfl

set_option maxHeartbeats 4000000 in
/-- The 2048-unit layer's state after the step. -/
theorem a1 (V : Valuation τ sig (Elt Ideal)) :
    after (ops3 (F := Ideal)) V (Proc.devRef .tc main_v162) =
      upd1 (V (Proc.devRef .tc main_v113)) (V (Proc.devRef .tc main_v131)) (V (Proc.devRef .tc main_v138)) (V (Proc.devRef .tc main_arg1)) := by
  after_results_simp
  rfl

set_option maxHeartbeats 4000000 in
/-- The class layer's state after the step. -/
theorem a0 (V : Valuation τ sig (Elt Ideal)) :
    after (ops3 (F := Ideal)) V (Proc.devRef .tc main_v166) =
      upd0 (V (Proc.devRef .tc main_v117)) (V (Proc.devRef .tc main_v138)) := by
  after_results_simp
  rfl

set_option maxHeartbeats 4000000 in
/-- The 1024-unit layer's error after the step: the moved state minus its prediction from the observation. -/
theorem e2 (V : Valuation τ sig (Elt Ideal)) :
    after (ops3 (F := Ideal)) V (Proc.devRef .tc main_v173) =
      subf (upd2 (V (Proc.devRef .tc main_v101)) (V (Proc.devRef .tc main_v124)) (V (Proc.devRef .tc main_v131)) (V (Proc.devRef .tc main_arg3))) (pred2 (V (Proc.devRef .tc main_arg0)) (V (Proc.devRef .tc main_arg5)) (V (Proc.devRef .tc main_arg6))) := by
  after_results_simp
  rfl

set_option maxHeartbeats 4000000 in
/-- The 2048-unit layer's error after the step: the moved state minus its prediction from the moved state below. -/
theorem e1 (V : Valuation τ sig (Elt Ideal)) :
    after (ops3 (F := Ideal)) V (Proc.devRef .tc main_v180) =
      subf (upd1 (V (Proc.devRef .tc main_v113)) (V (Proc.devRef .tc main_v131)) (V (Proc.devRef .tc main_v138)) (V (Proc.devRef .tc main_arg1))) (pred1 (upd2 (V (Proc.devRef .tc main_v101)) (V (Proc.devRef .tc main_v124)) (V (Proc.devRef .tc main_v131)) (V (Proc.devRef .tc main_arg3))) (V (Proc.devRef .tc main_arg3)) (V (Proc.devRef .tc main_arg4))) := by
  after_results_simp
  rfl

set_option maxHeartbeats 4000000 in
/-- The class layer's error after the step: the moved state minus its prediction from the moved state below. -/
theorem e0 (V : Valuation τ sig (Elt Ideal)) :
    after (ops3 (F := Ideal)) V (Proc.devRef .tc main_v187) =
      subf (upd0 (V (Proc.devRef .tc main_v117)) (V (Proc.devRef .tc main_v138))) (pred0 (upd1 (V (Proc.devRef .tc main_v113)) (V (Proc.devRef .tc main_v131)) (V (Proc.devRef .tc main_v138)) (V (Proc.devRef .tc main_arg1))) (V (Proc.devRef .tc main_arg1)) (V (Proc.devRef .tc main_arg2))) := by
  after_results_simp
  rfl

set_option maxHeartbeats 4000000 in
/-- The step leaves argument 0 as it was. -/
theorem arg0 (V : Valuation τ sig (Elt Ideal)) :
    after (ops3 (F := Ideal)) V (Proc.devRef .tc main_arg0) =
      V (Proc.devRef .tc main_arg0) := by
  after_results_simp

set_option maxHeartbeats 4000000 in
/-- The step leaves argument 1 as it was. -/
theorem arg1 (V : Valuation τ sig (Elt Ideal)) :
    after (ops3 (F := Ideal)) V (Proc.devRef .tc main_arg1) =
      V (Proc.devRef .tc main_arg1) := by
  after_results_simp

set_option maxHeartbeats 4000000 in
/-- The step leaves argument 2 as it was. -/
theorem arg2 (V : Valuation τ sig (Elt Ideal)) :
    after (ops3 (F := Ideal)) V (Proc.devRef .tc main_arg2) =
      V (Proc.devRef .tc main_arg2) := by
  after_results_simp

set_option maxHeartbeats 4000000 in
/-- The step leaves argument 3 as it was. -/
theorem arg3 (V : Valuation τ sig (Elt Ideal)) :
    after (ops3 (F := Ideal)) V (Proc.devRef .tc main_arg3) =
      V (Proc.devRef .tc main_arg3) := by
  after_results_simp

set_option maxHeartbeats 4000000 in
/-- The step leaves argument 4 as it was. -/
theorem arg4 (V : Valuation τ sig (Elt Ideal)) :
    after (ops3 (F := Ideal)) V (Proc.devRef .tc main_arg4) =
      V (Proc.devRef .tc main_arg4) := by
  after_results_simp

set_option maxHeartbeats 4000000 in
/-- The step leaves argument 5 as it was. -/
theorem arg5 (V : Valuation τ sig (Elt Ideal)) :
    after (ops3 (F := Ideal)) V (Proc.devRef .tc main_arg5) =
      V (Proc.devRef .tc main_arg5) := by
  after_results_simp

set_option maxHeartbeats 4000000 in
/-- The step leaves argument 6 as it was. -/
theorem arg6 (V : Valuation τ sig (Elt Ideal)) :
    after (ops3 (F := Ideal)) V (Proc.devRef .tc main_arg6) =
      V (Proc.devRef .tc main_arg6) := by
  after_results_simp

end Cert.RefWin3

end
-- ==== Proof.RefWin4.lean ====
/-
  The fourth relaxation step of the reference, read as one line of host operations from ARBITRARY buffer contents `V`.
  The line reads the three states (main_v150, main_v162, main_v166), the three errors (main_v173, main_v180, main_v187) and the seven
  arguments; it leaves the moved states in main_v199, main_v211, main_v215 — each the layer's one-step update of its old state —
  and the errors of the moved states in main_v222, main_v229, main_v236 — each a moved state minus the layer's prediction from the
  moved state below it (from the observation, for the lowest layer); it writes no argument buffer.
  Every statement is the fold of the operations' results at one buffer, computed by rewriting each operation's result at
  its own buffer to its function's value and at every other buffer to what was there; what remains is the layer functions'
  own text.
-/
import proofs.«181184_j32744830665380_2_alg».proof.Proof.RefOps
import proofs.«181184_j32744830665380_2_alg».proof.Proof.RefLayers

noncomputable section

namespace Cert.RefWin4

open Cert.ReferenceIdeal Cert.ReferenceIdeal.Gen Cert.ReferenceIdeal.RunW Cert.Ref
open Idealize.ShloMosaic Idealize.ShloMosaic.TcCoe Idealize.SL.Sem Idealize.ShloMosaic.StableHlo

set_option maxHeartbeats 4000000 in
/-- The 1024-unit layer's state after the step. -/
theorem a2 (V : Valuation τ sig (Elt Ideal)) :
    after (ops4 (F := Ideal)) V (Proc.devRef .tc main_v199) =
      upd2 (V (Proc.devRef .tc main_v150)) (V (Proc.devRef .tc main_v173)) (V (Proc.devRef .tc main_v180)) (V (Proc.devRef .tc main_arg3)) := by
  after_results_simp
  rfl

set_option maxHeartbeats 4000000 in
/-- The 2048-unit layer's state after the step. -/
theorem a1 (V : Valuation τ sig (Elt Ideal)) :
    after (ops4 (F := Ideal)) V (Proc.devRef .tc main_v211) =
      upd1 (V (Proc.devRef .tc main_v162)) (V (Proc.devRef .tc main_v180)) (V (Proc.devRef .tc main_v187)) (V (Proc.devRef .tc main_arg1)) := by
  after_results_simp
  rfl

set_option maxHeartbeats 4000000 in
/-- The class layer's state after the step. -/
theorem a0 (V : Valuation τ sig (Elt Ideal)) :
    after (ops4 (F := Ideal)) V (Proc.devRef .tc main_v215) =
      upd0 (V (Proc.devRef .tc main_v166)) (V (Proc.devRef .tc main_v187)) := by
  after_results_simp
  rfl

set_option maxHeartbeats 4000000 in
/-- The 1024-unit layer's error after the step: the moved state minus its prediction from the observation. -/
theorem e2 (V : Valuation τ sig (Elt Ideal)) :
    after (ops4 (F := Ideal)) V (Proc.devRef .tc main_v222) =
      subf (upd2 (V (Proc.devRef .tc main_v150)) (V (Proc.devRef .tc main_v173)) (V (Proc.devRef .tc main_v180)) (V (Proc.devRef .tc main_arg3))) (pred2 (V (Proc.devRef .tc main_arg0)) (V (Proc.devRef .tc main_arg5)) (V (Proc.devRef .tc main_arg6))) := by
  after_results_simp
  rfl

set_option maxHeartbeats 4000000 in
/-- The 2048-unit layer's error after the step: the moved state minus its prediction from the moved state below. -/
theorem e1 (V : Valuation τ sig (Elt Ideal)) :
    after (ops4 (F := Ideal)) V (Proc.devRef .tc main_v229) =
      subf (upd1 (V (Proc.devRef .tc main_v162)) (V (Proc.devRef .tc main_v180)) (V (Proc.devRef .tc main_v187)) (V (Proc.devRef .tc main_arg1))) (pred1 (upd2 (V (Proc.devRef .tc main_v150)) (V (Proc.devRef .tc main_v173)) (V (Proc.devRef .tc main_v180)) (V (Proc.devRef .tc main_arg3))) (V (Proc.devRef .tc main_arg3)) (V (Proc.devRef .tc main_arg4))) := by
  after_results_simp
  rfl

set_option maxHeartbeats 4000000 in
/-- The class layer's error after the step: the moved state minus its prediction from the moved state below. -/
theorem e0 (V : Valuation τ sig (Elt Ideal)) :
    after (ops4 (F := Ideal)) V (Proc.devRef .tc main_v236) =
      subf (upd0 (V (Proc.devRef .tc main_v166)) (V (Proc.devRef .tc main_v187))) (pred0 (upd1 (V (Proc.devRef .tc main_v162)) (V (Proc.devRef .tc main_v180)) (V (Proc.devRef .tc main_v187)) (V (Proc.devRef .tc main_arg1))) (V (Proc.devRef .tc main_arg1)) (V (Proc.devRef .tc main_arg2))) := by
  after_results_simp
  rfl

set_option maxHeartbeats 4000000 in
/-- The step leaves argument 0 as it was. -/
theorem arg0 (V : Valuation τ sig (Elt Ideal)) :
    after (ops4 (F := Ideal)) V (Proc.devRef .tc main_arg0) =
      V (Proc.devRef .tc main_arg0) := by
  after_results_simp

set_option maxHeartbeats 4000000 in
/-- The step leaves argument 1 as it was. -/
theorem arg1 (V : Valuation τ sig (Elt Ideal)) :
    after (ops4 (F := Ideal)) V (Proc.devRef .tc main_arg1) =
      V (Proc.devRef .tc main_arg1) := by
  after_results_simp

set_option maxHeartbeats 4000000 in
/-- The step leaves argument 2 as it was. -/
theorem arg2 (V : Valuation τ sig (Elt Ideal)) :
    after (ops4 (F := Ideal)) V (Proc.devRef .tc main_arg2) =
      V (Proc.devRef .tc main_arg2) := by
  after_results_simp

set_option maxHeartbeats 4000000 in
/-- The step leaves argument 3 as it was. -/
theorem arg3 (V : Valuation τ sig (Elt Ideal)) :
    after (ops4 (F := Ideal)) V (Proc.devRef .tc main_arg3) =
      V (Proc.devRef .tc main_arg3) := by
  after_results_simp

set_option maxHeartbeats 4000000 in
/-- The step leaves argument 4 as it was. -/
theorem arg4 (V : Valuation τ sig (Elt Ideal)) :
    after (ops4 (F := Ideal)) V (Proc.devRef .tc main_arg4) =
      V (Proc.devRef .tc main_arg4) := by
  after_results_simp

set_option maxHeartbeats 4000000 in
/-- The step leaves argument 5 as it was. -/
theorem arg5 (V : Valuation τ sig (Elt Ideal)) :
    after (ops4 (F := Ideal)) V (Proc.devRef .tc main_arg5) =
      V (Proc.devRef .tc main_arg5) := by
  after_results_simp

set_option maxHeartbeats 4000000 in
/-- The step leaves argument 6 as it was. -/
theorem arg6 (V : Valuation τ sig (Elt Ideal)) :
    after (ops4 (F := Ideal)) V (Proc.devRef .tc main_arg6) =
      V (Proc.devRef .tc main_arg6) := by
  after_results_simp

end Cert.RefWin4

end
-- ==== Proof.RefWin5.lean ====
/-
  The fifth relaxation step of the reference, read as one line of host operations from ARBITRARY buffer contents `V`.
  Of what the line writes only main_v264 is read afterwards: it is the program's result, the class layer's moved state,
  which is the layer's one-step update of its old state main_v215 by its error main_v236. The line writes no argument
  buffer.
  Every statement is the fold of the operations' results at one buffer, computed by rewriting each operation's result at
  its own buffer to its function's value and at every other buffer to what was there; what remains is the layer functions'
  own text.
-/
import proofs.«181184_j32744830665380_2_alg».proof.Proof.RefOps
import proofs.«181184_j32744830665380_2_alg».proof.Proof.RefLayers

noncomputable section

namespace Cert.RefWin5

open Cert.ReferenceIdeal Cert.ReferenceIdeal.Gen Cert.ReferenceIdeal.RunW Cert.Ref
open Idealize.ShloMosaic Idealize.ShloMosaic.TcCoe Idealize.SL.Sem Idealize.ShloMosaic.StableHlo

set_option maxHeartbeats 4000000 in
/-- The class layer's state after the step. -/
theorem a0 (V : Valuation τ sig (Elt Ideal)) :
    after (ops5 (F := Ideal)) V (Proc.devRef .tc main_v264) =
      upd0 (V (Proc.devRef .tc main_v215)) (V (Proc.devRef .tc main_v236)) := by
  after_results_simp
  rfl

set_option maxHeartbeats 4000000 in
/-- The step leaves argument 0 as it was. -/
theorem arg0 (V : Valuation τ sig (Elt Ideal)) :
    after (ops5 (F := Ideal)) V (Proc.devRef .tc main_arg0) =
      V (Proc.devRef .tc main_arg0) := by
  after_results_simp

set_option maxHeartbeats 4000000 in
/-- The step leaves argument 1 as it was. -/
theorem arg1 (V : Valuation τ sig (Elt Ideal)) :
    after (ops5 (F := Ideal)) V (Proc.devRef .tc main_arg1) =
      V (Proc.devRef .tc main_arg1) := by
  after_results_simp

set_option maxHeartbeats 4000000 in
/-- The step leaves argument 2 as it was. -/
theorem arg2 (V : Valuation τ sig (Elt Ideal)) :
    after (ops5 (F := Ideal)) V (Proc.devRef .tc main_arg2) =
      V (Proc.devRef .tc main_arg2) := by
  after_results_simp

set_option maxHeartbeats 4000000 in
/-- The step leaves argument 3 as it was. -/
theorem arg3 (V : Valuation τ sig (Elt Ideal)) :
    after (ops5 (F := Ideal)) V (Proc.devRef .tc main_arg3) =
      V (Proc.devRef .tc main_arg3) := by
  after_results_simp

set_option maxHeartbeats 4000000 in
/-- The step leaves argument 4 as it was. -/
theorem arg4 (V : Valuation τ sig (Elt Ideal)) :
    after (ops5 (F := Ideal)) V (Proc.devRef .tc main_arg4) =
      V (Proc.devRef .tc main_arg4) := by
  after_results_simp

set_option maxHeartbeats 4000000 in
/-- The step leaves argument 5 as it was. -/
theorem arg5 (V : Valuation τ sig (Elt Ideal)) :
    after (ops5 (F := Ideal)) V (Proc.devRef .tc main_arg5) =
      V (Proc.devRef .tc main_arg5) := by
  after_results_simp

set_option maxHeartbeats 4000000 in
/-- The step leaves argument 6 as it was. -/
theorem arg6 (V : Valuation τ sig (Elt Ideal)) :
    after (ops5 (F := Ideal)) V (Proc.devRef .tc main_arg6) =
      V (Proc.devRef .tc main_arg6) := by
  after_results_simp

end Cert.RefWin5

end
-- ==== Proof.RefRun.lean ====
/-
  The reference's whole run, walked list by list.

  The reference starts every layer's state at its prediction from the state below, so every initial error is an array
  minus itself: zero wherever the array is real. A relaxation step moves a state by a tenth of a combination of errors,
  every one of which is zero: it leaves the state where it was, and the errors it recomputes are again an array minus
  itself. So the five unrolled steps change nothing, and the program's result — the class layer's state after the fifth
  step — is the class layer's initial state: three fully connected layers over the observation, rectified on the way in
  and between the layers.

  `Settled` says exactly that of six arrays: the three states are the predictions chained up from the observation and the
  three errors are the zero array. The opening list establishes it (`settled_start`), one step preserves it
  (`Settled.step`), and the lists are joined by `after (l₁ ++ l₂) V = after l₂ (after l₁ V)`: each list's folds, stated
  for arbitrary buffer contents, are read at what the lists before it leave. No list writes an argument buffer.
-/
import proofs.«181184_j32744830665380_2_alg».proof.Proof.RefOps
import proofs.«181184_j32744830665380_2_alg».proof.Proof.RefLayers
import proofs.«181184_j32744830665380_2_alg».proof.Proof.Net
import proofs.«181184_j32744830665380_2_alg».proof.Proof.RefCollapse
import proofs.«181184_j32744830665380_2_alg».proof.Proof.RefValue
import proofs.«181184_j32744830665380_2_alg».proof.Proof.RefWin0
import proofs.«181184_j32744830665380_2_alg».proof.Proof.RefWin1
import proofs.«181184_j32744830665380_2_alg».proof.Proof.RefWin2
import proofs.«181184_j32744830665380_2_alg».proof.Proof.RefWin3
import proofs.«181184_j32744830665380_2_alg».proof.Proof.RefWin4
import proofs.«181184_j32744830665380_2_alg».proof.Proof.RefWin5

noncomputable section

namespace Cert.RefRun

open Cert.ReferenceIdeal Cert.ReferenceIdeal.Gen Cert.ReferenceIdeal.RunW Cert.Ref Cert.Net
open Idealize.ShloMosaic Idealize.ShloMosaic.TcCoe Idealize.SL.Sem Idealize.ShloMosaic.StableHlo

/-! ## On arrays -/

section Arrays

variable (obs : FVec Ideal S1024x4096 .f32) (W0 : FVec Ideal S1000x2048 .f32) (b0 : FVec Ideal S1000 .f32)
  (W1 : FVec Ideal S2048x1024 .f32) (b1 : FVec Ideal S2048 .f32) (W2 : FVec Ideal S1024x4096 .f32) (b2 : FVec Ideal S1024 .f32)

/-- Six arrays at the relaxation's resting point over the arguments: the states are the predictions chained up from
    the observation, the errors are zero. -/
structure Settled (x2 : FVec Ideal S1024x1024 .f32) (x1 : FVec Ideal S1024x2048 .f32) (x0 : FVec Ideal S1024x1000 .f32)
    (e2 : FVec Ideal S1024x1024 .f32) (e1 : FVec Ideal S1024x2048 .f32) (e0 : FVec Ideal S1024x1000 .f32) : Prop where
  x2_eq : x2 = pred2 obs W2 b2
  x1_eq : x1 = pred1 x2 W1 b1
  x0_eq : x0 = pred0 x1 W0 b0
  e2_eq : e2 = fun _ => (0 : EReal)
  e1_eq : e1 = fun _ => (0 : EReal)
  e0_eq : e0 = fun _ => (0 : EReal)

/-- All seven argument arrays are real. -/
structure RealArgs : Prop where
  obs : IsReal obs
  W0 : IsReal W0
  b0 : IsReal b0
  W1 : IsReal W1
  b1 : IsReal b1
  W2 : IsReal W2
  b2 : IsReal b2

variable {obs W0 b0 W1 b1 W2 b2}

theorem RealArgs.x2 (hr : RealArgs obs W0 b0 W1 b1 W2 b2) : IsReal (pred2 obs W2 b2) := by
  apply isReal_pred2
  exacts [hr.obs, hr.W2, hr.b2]

theorem RealArgs.x1 (hr : RealArgs obs W0 b0 W1 b1 W2 b2) : IsReal (pred1 (pred2 obs W2 b2) W1 b1) := by
  apply isReal_pred1
  exacts [hr.x2, hr.W1, hr.b1]

theorem RealArgs.x0 (hr : RealArgs obs W0 b0 W1 b1 W2 b2) : IsReal (pred0 (pred1 (pred2 obs W2 b2) W1 b1) W0 b0) := by
  apply isReal_pred0
  exacts [hr.x1, hr.W0, hr.b0]

/-- The opening list's six arrays are settled: each error is a real array minus itself. -/
theorem settled_start (hr : RealArgs obs W0 b0 W1 b1 W2 b2) :
    Settled obs W0 b0 W1 b1 W2 b2 (pred2 obs W2 b2) (pred1 (pred2 obs W2 b2) W1 b1) (pred0 (pred1 (pred2 obs W2 b2) W1 b1) W0 b0)
      (subf (pred2 obs W2 b2) (pred2 obs W2 b2))
      (subf (pred1 (pred2 obs W2 b2) W1 b1) (pred1 (pred2 obs W2 b2) W1 b1))
      (subf (pred0 (pred1 (pred2 obs W2 b2) W1 b1) W0 b0) (pred0 (pred1 (pred2 obs W2 b2) W1 b1) W0 b0)) :=
  ⟨rfl, rfl, rfl, err_self _ hr.x2, err_self _ hr.x1, err_self _ hr.x0⟩

/-- One relaxation step keeps settled arrays settled: with zero errors every state stays, and every recomputed error is
    again a real array minus itself. -/
theorem Settled.step (hr : RealArgs obs W0 b0 W1 b1 W2 b2) {x2 x1 x0 e2 e1 e0}
    (h : Settled obs W0 b0 W1 b1 W2 b2 x2 x1 x0 e2 e1 e0) :
    Settled obs W0 b0 W1 b1 W2 b2 (upd2 x2 e2 e1 W1) (upd1 x1 e1 e0 W0) (upd0 x0 e0)
      (subf (upd2 x2 e2 e1 W1) (pred2 obs W2 b2))
      (subf (upd1 x1 e1 e0 W0) (pred1 (upd2 x2 e2 e1 W1) W1 b1))
      (subf (upd0 x0 e0) (pred0 (upd1 x1 e1 e0 W0) W0 b0)) := by
  obtain ⟨h2, h1, h0, z2, z1, z0⟩ := h
  subst h2 h1 h0 z2 z1 z0
  rw [upd2_zero, upd1_zero, upd0_zero]
  exact settled_start hr

/-- At settled arrays the class layer's state after a step is the network's output. -/
theorem Settled.result {x2 x1 x0 e2 e1 e0} (h : Settled obs W0 b0 W1 b1 W2 b2 x2 x1 x0 e2 e1 e0) :
    upd0 x0 e0 = net obs W0 b0 W1 b1 W2 b2 := by
  obtain ⟨h2, h1, h0, z2, z1, z0⟩ := h
  subst h2 h1 h0 z2 z1 z0
  rw [upd0_zero, pred0_eq, pred1_eq, pred2_eq]
  rfl

end Arrays

/-! ## On buffer contents -/

/-- The buffer contents' seven argument arrays are real. -/
abbrev RealAt (V : Valuation τ sig (Elt Ideal)) : Prop :=
  RealArgs (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))

/-- The states and errors that list 0 leaves (main_v5, main_v11, main_v17; main_v39, main_v32, main_v25) are settled over the arguments. -/
abbrev SettledAt0 (V : Valuation τ sig (Elt Ideal)) : Prop :=
  Settled (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    (V (Proc.devRef .tc main_v5)) (V (Proc.devRef .tc main_v11)) (V (Proc.devRef .tc main_v17)) (V (Proc.devRef .tc main_v39)) (V (Proc.devRef .tc main_v32)) (V (Proc.devRef .tc main_v25))

/-- The states and errors that list 1 leaves (main_v52, main_v64, main_v68; main_v75, main_v82, main_v89) are settled over the arguments. -/
abbrev SettledAt1 (V : Valuation τ sig (Elt Ideal)) : Prop :=
  Settled (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    (V (Proc.devRef .tc main_v52)) (V (Proc.devRef .tc main_v64)) (V (Proc.devRef .tc main_v68)) (V (Proc.devRef .tc main_v75)) (V (Proc.devRef .tc main_v82)) (V (Proc.devRef .tc main_v89))

/-- The states and errors that list 2 leaves (main_v101, main_v113, main_v117; main_v124, main_v131, main_v138) are settled over the arguments. -/
abbrev SettledAt2 (V : Valuation τ sig (Elt Ideal)) : Prop :=
  Settled (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    (V (Proc.devRef .tc main_v101)) (V (Proc.devRef .tc main_v113)) (V (Proc.devRef .tc main_v117)) (V (Proc.devRef .tc main_v124)) (V (Proc.devRef .tc main_v131)) (V (Proc.devRef .tc main_v138))

/-- The states and errors that list 3 leaves (main_v150, main_v162, main_v166; main_v173, main_v180, main_v187) are settled over the arguments. -/
abbrev SettledAt3 (V : Valuation τ sig (Elt Ideal)) : Prop :=
  Settled (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    (V (Proc.devRef .tc main_v150)) (V (Proc.devRef .tc main_v162)) (V (Proc.devRef .tc main_v166)) (V (Proc.devRef .tc main_v173)) (V (Proc.devRef .tc main_v180)) (V (Proc.devRef .tc main_v187))

/-- The states and errors that list 4 leaves (main_v199, main_v211, main_v215; main_v222, main_v229, main_v236) are settled over the arguments. -/
abbrev SettledAt4 (V : Valuation τ sig (Elt Ideal)) : Prop :=
  Settled (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    (V (Proc.devRef .tc main_v199)) (V (Proc.devRef .tc main_v211)) (V (Proc.devRef .tc main_v215)) (V (Proc.devRef .tc main_v222)) (V (Proc.devRef .tc main_v229)) (V (Proc.devRef .tc main_v236))

/-- The opening list keeps the arguments and leaves settled states and errors. -/
theorem stage0 (V : Valuation τ sig (Elt Ideal)) (hr : RealAt V) :
    RealAt (after (ops0 (F := Ideal)) V) ∧ SettledAt0 (after (ops0 (F := Ideal)) V) := by
  unfold RealAt SettledAt0
  rw [RefWin0.arg0, RefWin0.arg1, RefWin0.arg2, RefWin0.arg3, RefWin0.arg4, RefWin0.arg5, RefWin0.arg6, RefWin0.a2, RefWin0.a1, RefWin0.a0, RefWin0.e2, RefWin0.e1, RefWin0.e0]
  exact ⟨hr, settled_start hr⟩

/-- Step 1 keeps the arguments and keeps the states and errors settled. -/
theorem stage1 (V : Valuation τ sig (Elt Ideal)) (hr : RealAt V) (h : SettledAt0 V) :
    RealAt (after (ops1 (F := Ideal)) V) ∧ SettledAt1 (after (ops1 (F := Ideal)) V) := by
  unfold RealAt SettledAt1
  rw [RefWin1.arg0, RefWin1.arg1, RefWin1.arg2, RefWin1.arg3, RefWin1.arg4, RefWin1.arg5, RefWin1.arg6, RefWin1.a2, RefWin1.a1, RefWin1.a0, RefWin1.e2, RefWin1.e1, RefWin1.e0]
  exact ⟨hr, h.step hr⟩

/-- Step 2 keeps the arguments and keeps the states and errors settled. -/
theorem stage2 (V : Valuation τ sig (Elt Ideal)) (hr : RealAt V) (h : SettledAt1 V) :
    RealAt (after (ops2 (F := Ideal)) V) ∧ SettledAt2 (after (ops2 (F := Ideal)) V) := by
  unfold RealAt SettledAt2
  rw [RefWin2.arg0, RefWin2.arg1, RefWin2.arg2, RefWin2.arg3, RefWin2.arg4, RefWin2.arg5, RefWin2.arg6, RefWin2.a2, RefWin2.a1, RefWin2.a0, RefWin2.e2, RefWin2.e1, RefWin2.e0]
  exact ⟨hr, h.step hr⟩

/-- Step 3 keeps the arguments and keeps the states and errors settled. -/
theorem stage3 (V : Valuation τ sig (Elt Ideal)) (hr : RealAt V) (h : SettledAt2 V) :
    RealAt (after (ops3 (F := Ideal)) V) ∧ SettledAt3 (after (ops3 (F := Ideal)) V) := by
  unfold RealAt SettledAt3
  rw [RefWin3.arg0, RefWin3.arg1, RefWin3.arg2, RefWin3.arg3, RefWin3.arg4, RefWin3.arg5, RefWin3.arg6, RefWin3.a2, RefWin3.a1, RefWin3.a0, RefWin3.e2, RefWin3.e1, RefWin3.e0]
  exact ⟨hr, h.step hr⟩

/-- Step 4 keeps the arguments and keeps the states and errors settled. -/
theorem stage4 (V : Valuation τ sig (Elt Ideal)) (hr : RealAt V) (h : SettledAt3 V) :
    RealAt (after (ops4 (F := Ideal)) V) ∧ SettledAt4 (after (ops4 (F := Ideal)) V) := by
  unfold RealAt SettledAt4
  rw [RefWin4.arg0, RefWin4.arg1, RefWin4.arg2, RefWin4.arg3, RefWin4.arg4, RefWin4.arg5, RefWin4.arg6, RefWin4.a2, RefWin4.a1, RefWin4.a0, RefWin4.e2, RefWin4.e1, RefWin4.e0]
  exact ⟨hr, h.step hr⟩

/-- Step 5 leaves the network's output in the result buffer. -/
theorem stage5 (V : Valuation τ sig (Elt Ideal)) (h : SettledAt4 V) :
    after (ops5 (F := Ideal)) V (Proc.devRef .tc main_v264) = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [RefWin5.a0]
  exact h.result

/-- The whole line is its six lists run one after the other. -/
theorem after_ops (V : Valuation τ sig (Elt Ideal)) :
    after (ops (F := Ideal)) V
      = after ops5 (after ops4 (after ops3 (after ops2 (after ops1 (after ops0 V))))) := by
  rw [show (ops (F := Ideal)) = ops0 ++ (ops1 ++ (ops2 ++ (ops3 ++ (ops4 ++ ops5)))) from rfl,
    StableHlo.after_append, StableHlo.after_append, StableHlo.after_append, StableHlo.after_append,
    StableHlo.after_append]

/-- No list writes argument 0. -/
theorem ops_arg0 (V : Valuation τ sig (Elt Ideal)) :
    after (ops (F := Ideal)) V (Proc.devRef .tc main_arg0) = V (Proc.devRef .tc main_arg0) := by
  rw [after_ops, RefWin5.arg0, RefWin4.arg0, RefWin3.arg0, RefWin2.arg0, RefWin1.arg0, RefWin0.arg0]

/-- No list writes argument 1. -/
theorem ops_arg1 (V : Valuation τ sig (Elt Ideal)) :
    after (ops (F := Ideal)) V (Proc.devRef .tc main_arg1) = V (Proc.devRef .tc main_arg1) := by
  rw [after_ops, RefWin5.arg1, RefWin4.arg1, RefWin3.arg1, RefWin2.arg1, RefWin1.arg1, RefWin0.arg1]

/-- No list writes argument 2. -/
theorem ops_arg2 (V : Valuation τ sig (Elt Ideal)) :
    after (ops (F := Ideal)) V (Proc.devRef .tc main_arg2) = V (Proc.devRef .tc main_arg2) := by
  rw [after_ops, RefWin5.arg2, RefWin4.arg2, RefWin3.arg2, RefWin2.arg2, RefWin1.arg2, RefWin0.arg2]

/-- No list writes argument 3. -/
theorem ops_arg3 (V : Valuation τ sig (Elt Ideal)) :
    after (ops (F := Ideal)) V (Proc.devRef .tc main_arg3) = V (Proc.devRef .tc main_arg3) := by
  rw [after_ops, RefWin5.arg3, RefWin4.arg3, RefWin3.arg3, RefWin2.arg3, RefWin1.arg3, RefWin0.arg3]

/-- No list writes argument 4. -/
theorem ops_arg4 (V : Valuation τ sig (Elt Ideal)) :
    after (ops (F := Ideal)) V (Proc.devRef .tc main_arg4) = V (Proc.devRef .tc main_arg4) := by
  rw [after_ops, RefWin5.arg4, RefWin4.arg4, RefWin3.arg4, RefWin2.arg4, RefWin1.arg4, RefWin0.arg4]

/-- No list writes argument 5. -/
theorem ops_arg5 (V : Valuation τ sig (Elt Ideal)) :
    after (ops (F := Ideal)) V (Proc.devRef .tc main_arg5) = V (Proc.devRef .tc main_arg5) := by
  rw [after_ops, RefWin5.arg5, RefWin4.arg5, RefWin3.arg5, RefWin2.arg5, RefWin1.arg5, RefWin0.arg5]

/-- No list writes argument 6. -/
theorem ops_arg6 (V : Valuation τ sig (Elt Ideal)) :
    after (ops (F := Ideal)) V (Proc.devRef .tc main_arg6) = V (Proc.devRef .tc main_arg6) := by
  rw [after_ops, RefWin5.arg6, RefWin4.arg6, RefWin3.arg6, RefWin2.arg6, RefWin1.arg6, RefWin0.arg6]

/-- From buffer contents whose seven argument arrays are real, the reference's operations leave the network's output
    over those arrays in the result buffer. -/
theorem ops_result (V : Valuation τ sig (Elt Ideal)) (hr : RealAt V) :
    after (ops (F := Ideal)) V (Proc.devRef .tc main_v264) = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  obtain ⟨r0, s0⟩ := stage0 V hr
  obtain ⟨r1, s1⟩ := stage1 _ r0 s0
  obtain ⟨r2, s2⟩ := stage2 _ r1 s1
  obtain ⟨r3, s3⟩ := stage3 _ r2 s2
  obtain ⟨r4, s4⟩ := stage4 _ r3 s3
  rw [after_ops, stage5 _ s4]
  rw [RefWin4.arg0, RefWin4.arg1, RefWin4.arg2, RefWin4.arg3, RefWin4.arg4, RefWin4.arg5, RefWin4.arg6,
    RefWin3.arg0, RefWin3.arg1, RefWin3.arg2, RefWin3.arg3, RefWin3.arg4, RefWin3.arg5, RefWin3.arg6,
    RefWin2.arg0, RefWin2.arg1, RefWin2.arg2, RefWin2.arg3, RefWin2.arg4, RefWin2.arg5, RefWin2.arg6,
    RefWin1.arg0, RefWin1.arg1, RefWin1.arg2, RefWin1.arg3, RefWin1.arg4, RefWin1.arg5, RefWin1.arg6,
    RefWin0.arg0, RefWin0.arg1, RefWin0.arg2, RefWin0.arg3, RefWin0.arg4, RefWin0.arg5, RefWin0.arg6]

/-- From any memory with zero counters whose seven argument arrays are real on every device, every weakly fair
    execution of the reference terminates with the network's output over the launch arguments in the result buffer and
    the argument buffers as launched. -/
theorem ref_run (m : (ℓ : Loc nD τ sig) → Buf (Elt Ideal) ℓ) (ρ : Dev nD → PrngReg)
    (h : ∀ c : Dev nD,
      IsReal (S := S1024x4096) (m ((c.tc : Thread nD τ).loc main_arg0))
      ∧ IsReal (S := S1000x2048) (m ((c.tc : Thread nD τ).loc main_arg1))
      ∧ IsReal (S := S1000) (m ((c.tc : Thread nD τ).loc main_arg2))
      ∧ IsReal (S := S2048x1024) (m ((c.tc : Thread nD τ).loc main_arg3))
      ∧ IsReal (S := S2048) (m ((c.tc : Thread nD τ).loc main_arg4))
      ∧ IsReal (S := S1024x4096) (m ((c.tc : Thread nD τ).loc main_arg5))
      ∧ IsReal (S := S1024) (m ((c.tc : Thread nD τ).loc main_arg6))) :
    θ_run defs (onTc (τ := τ) (main (F := Ideal))) ⟨m, fun _ => 0, ρ⟩ fun r => ∀ c : Dev nD,
      r.2.mem ((c.tc : Thread nD τ).loc main_v264)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ hm c =>
    have hr : RealAt (launchContents m c) :=
      ⟨(h c).1, (h c).2.1, (h c).2.2.1, (h c).2.2.2.1, (h c).2.2.2.2.1, (h c).2.2.2.2.2.1, (h c).2.2.2.2.2.2⟩
    ⟨(hm c main_v264).trans (ops_result _ hr),
      (hm c main_arg0).trans (ops_arg0 _),
      (hm c main_arg1).trans (ops_arg1 _),
      (hm c main_arg2).trans (ops_arg2 _),
      (hm c main_arg3).trans (ops_arg3 _),
      (hm c main_arg4).trans (ops_arg4 _),
      (hm c main_arg5).trans (ops_arg5 _),
      (hm c main_arg6).trans (ops_arg6 _)⟩)
    (RunW.run (F := Ideal) m ρ)

end Cert.RefRun

end
-- ==== Proof.lean ====
/-
  The proof of `Cert.Claim`: a three-layer perceptron computed by three tiled launches equals, at the extended reals, the
  class-layer state that five steps of predictive-coding relaxation return.

  The reference starts each layer's state at its prediction from the layer below, so each layer's error — state minus
  prediction — is an array minus itself: zero, because finite inputs make every state an array of real numbers (on the
  extended reals x − x = 0 needs x real; this is the one place the precondition is used). A relaxation step moves each
  state by a tenth of (minus its error, plus the error above carried back through the weights and gated): every term is
  zero, so the five steps change nothing and the result is the initial class-layer state,
  relu(relu(relu(obs)·W2ᵀ + b2)·W1ᵀ + b1)·W0ᵀ + b0.
  The kernel computes that expression directly: one launch per layer, each output tile a block of rows of the state times a
  block of rows of the weights plus a block of the bias row; the class layer's weights and bias are zero-padded from 1000 to
  1024 and the padding columns are cut off the result, which changes no kept column. Roundings to bf16 are the identity at
  the extended reals.
  The modules: Net (the network as a function of arrays), KPay*/KBlocks* (each launch's tiles and their union), KRun and
  KHost (the kernel's segments and the host operations between them), KTail and KChain (the padded class layer; the
  result as the network), RefOps and RefWin* (the reference's operations, read list by list), RefLayers, RefCollapse,
  RefValue and RefRun (the relaxation's algebra and the reference's result), Finite (finite inputs are real arrays).
-/
import proofs.«181184_j32744830665380_2_alg».proof.Defs
import proofs.«181184_j32744830665380_2_alg».proof.Proof.Gen.Kernel
import proofs.«181184_j32744830665380_2_alg».proof.Proof.Gen.Kernel.Skeleton
import proofs.«181184_j32744830665380_2_alg».proof.Proof.Gen.Kernel.Launch
import proofs.«181184_j32744830665380_2_alg».proof.Proof.Gen.Kernel.Points
import proofs.«181184_j32744830665380_2_alg».proof.Proof.Gen.Kernel.Frame
import proofs.«181184_j32744830665380_2_alg».proof.Proof.Gen.KernelIdeal
import proofs.«181184_j32744830665380_2_alg».proof.Proof.Gen.KernelIdeal.Skeleton
import proofs.«181184_j32744830665380_2_alg».proof.Proof.Gen.KernelIdeal.Launch
import proofs.«181184_j32744830665380_2_alg».proof.Proof.Gen.KernelIdeal.Points
import proofs.«181184_j32744830665380_2_alg».proof.Proof.Gen.KernelIdeal.Frame
import proofs.«181184_j32744830665380_2_alg».proof.Proof.Gen.ReferenceIdeal
import proofs.«181184_j32744830665380_2_alg».proof.Proof.Gen.Pre_finite_inputs
import proofs.«181184_j32744830665380_2_alg».proof.Proof.KRun
import proofs.«181184_j32744830665380_2_alg».proof.Proof.KChain
import proofs.«181184_j32744830665380_2_alg».proof.Proof.Finite
import proofs.«181184_j32744830665380_2_alg».proof.Proof.RefRun
import Idealize.ShloMosaic.Adequacy
import Idealize.ShloMosaic.Init

set_option maxRecDepth 16384

noncomputable section

namespace Cert.Proof

open Idealize.ShloMosaic Idealize.SL.Sem

/-- The reference runs and keeps its arguments: its run with the result dropped; the precondition supplies the real
    arrays the run asks for. -/
theorem frame_ref : Cert.frame_ReferenceIdeal := fun m ρ hpre =>
  (θ_run (Cert.ReferenceIdeal.defs (F := Ideal)) _ _).mono (fun _ h c => (h c).2)
    (Cert.RefRun.ref_run m ρ fun c => Cert.Finite.args_real _ _ _ _ _ _ _ (hpre c))

/-- Both idealized programs end with the network of the arguments in their result buffers. -/
theorem algebraic : Cert.algebraic_KernelIdeal_ReferenceIdeal := by
  intro m g m' g' hpre hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono
      (fun r h c => ⟨(h c).1.trans (Cert.KernelIdeal.Chain.value m g c), (h c).2⟩)
      (Cert.KernelIdeal.RunV.run_value m g)
  · have hreal : ∀ c : Dev Cert.ReferenceIdeal.nD,
        Cert.Net.IsReal (S := Cert.ReferenceIdeal.S1024x4096) (m' ((c.tc : Thread Cert.ReferenceIdeal.nD Cert.ReferenceIdeal.τ).loc Cert.ReferenceIdeal.main_arg0))
        ∧ Cert.Net.IsReal (S := Cert.ReferenceIdeal.S1000x2048) (m' ((c.tc : Thread Cert.ReferenceIdeal.nD Cert.ReferenceIdeal.τ).loc Cert.ReferenceIdeal.main_arg1))
        ∧ Cert.Net.IsReal (S := Cert.ReferenceIdeal.S1000) (m' ((c.tc : Thread Cert.ReferenceIdeal.nD Cert.ReferenceIdeal.τ).loc Cert.ReferenceIdeal.main_arg2))
        ∧ Cert.Net.IsReal (S := Cert.ReferenceIdeal.S2048x1024) (m' ((c.tc : Thread Cert.ReferenceIdeal.nD Cert.ReferenceIdeal.τ).loc Cert.ReferenceIdeal.main_arg3))
        ∧ Cert.Net.IsReal (S := Cert.ReferenceIdeal.S2048) (m' ((c.tc : Thread Cert.ReferenceIdeal.nD Cert.ReferenceIdeal.τ).loc Cert.ReferenceIdeal.main_arg4))
        ∧ Cert.Net.IsReal (S := Cert.ReferenceIdeal.S1024x4096) (m' ((c.tc : Thread Cert.ReferenceIdeal.nD Cert.ReferenceIdeal.τ).loc Cert.ReferenceIdeal.main_arg5))
        ∧ Cert.Net.IsReal (S := Cert.ReferenceIdeal.S1024) (m' ((c.tc : Thread Cert.ReferenceIdeal.nD Cert.ReferenceIdeal.τ).loc Cert.ReferenceIdeal.main_arg6)) := fun c => by
      obtain ⟨e0, e1, e2, e3, e4, e5, e6⟩ := hagree c
      rw [e0, e1, e2, e3, e4, e5, e6]
      exact Cert.Finite.args_real _ _ _ _ _ _ _ (hpre c)
    refine (θ_run (Cert.ReferenceIdeal.defs (F := Ideal)) _ _).mono (fun r h c => ⟨(h c).1.trans ?_, (h c).2⟩)
      (Cert.RefRun.ref_run m' g' hreal)
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
